-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x96x256 : Shape := ⟨3, ![16, 96, 256]⟩
abbrev S16x96x96x11 : Shape := ⟨4, ![16, 96, 96, 11]⟩
abbrev S256x256 : Shape := ⟨2, ![256, 256]⟩
abbrev S11x256 : Shape := ⟨2, ![11, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16x96x256 : S_.BroadcastsInDim S16x96x256 (![] : Fin 0 → Fin S16x96x256.rank)
  reducesTo_S16x96x256_S_d0_1_2 : S16x96x256.ReducesTo [0, 1, 2] S_
  h_S_ : 0 < S_.numel
  bcast_S_S16x96x96x11 : S_.BroadcastsInDim S16x96x96x11 (![] : Fin 0 → Fin S16x96x96x11.rank)
  reducesTo_S16x96x96x11_S_d0_1_2_3 : S16x96x96x11.ReducesTo [0, 1, 2, 3] S_
  bcast_S_S256x256 : S_.BroadcastsInDim S256x256 (![] : Fin 0 → Fin S256x256.rank)
  reducesTo_S256x256_S_d0_1 : S256x256.ReducesTo [0, 1] S_
  bcast_S_S11x256 : S_.BroadcastsInDim S11x256 (![] : Fin 0 → Fin S11x256.rank)
  reducesTo_S11x256_S_d0_1 : S11x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S11x256 1) : IVec S_ 1 :=
  let main_c_5 : IVec S_ 1 := constantI S_ 1 1#1
  let main_v17 : IVec S_ 1 := (fun x v => Host.reduce IntOp.andi x v reducesTo_S11x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x96x256 .f32) (main_arg1 : FVec F S16x96x96x11 .f32) (main_arg2 : FVec F S256x256 .f32) (main_arg3 : FVec F S11x256 .f32) (main_arg4 : FVec F S256 .f32) (main_arg5 : FVec F S256x1 .f32) (main_arg6 : FVec F S1 .f32) : IVec S_ 1 :=
  let main_v0 : FVec F S16x96x256 .f32 := Host.absf main_arg0
  let main_cst : FVec F S_ .f32 := constant S_ .f32 0x7F800000#32
  let main_v1 : FVec F S16x96x256 .f32 := broadcastInDim S16x96x256 ![] bcast_S_S16x96x256 main_cst
  let main_v2 : IVec S16x96x256 1 := cmpf .olt main_v0 main_v1
  let main_c : IVec S_ 1 := constantI S_ 1 1#1
  let main_v3 : IVec S_ 1 := (fun x v => Host.reduce IntOp.andi x v reducesTo_S16x96x256_S_d0_1_2 h_S_) main_v2 main_c
  let main_v4 : FVec F S16x96x96x11 .f32 := Host.absf main_arg1
  let main_cst_0 : FVec F S_ .f32 := constant S_ .f32 0x7F800000#32
  let main_v5 : FVec F S16x96x96x11 .f32 := broadcastInDim S16x96x96x11 ![] bcast_S_S16x96x96x11 main_cst_0
  let main_v6 : IVec S16x96x96x11 1 := cmpf .olt main_v4 main_v5
  let main_c_1 : IVec S_ 1 := constantI S_ 1 1#1
  let main_v7 : IVec S_ 1 := (fun x v => Host.reduce IntOp.andi x v reducesTo_S16x96x96x11_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S11x256 .f32 := Host.absf main_arg3
  let main_cst_4 : FVec F S_ .f32 := constant S_ .f32 0x7F800000#32
  let main_v15 : FVec F S11x256 .f32 := broadcastInDim S11x256 ![] bcast_S_S11x256 main_cst_4
  let main_v16 : IVec S11x256 1 := cmpf .olt main_v14 main_v15
  fn_part1 (F := F) main_arg4 main_arg5 main_arg6 main_v13 main_v16
-- ==== Kernel.lean ====
abbrev S16x96x256 : Shape := ⟨3, ![16, 96, 256]⟩
abbrev S16x96x96x11 : Shape := ⟨4, ![16, 96, 96, 11]⟩
abbrev S256x256 : Shape := ⟨2, ![256, 256]⟩
abbrev S11x256 : Shape := ⟨2, ![11, 256]⟩
abbrev S256 : Shape := ⟨1, ![256]⟩
abbrev S256x1 : Shape := ⟨2, ![256, 1]⟩
abbrev S1 : Shape := ⟨1, ![1]⟩
abbrev S_ : Shape := ⟨0, ![]⟩
abbrev S16x96x96x1 : Shape := ⟨4, ![16, 96, 96, 1]⟩
abbrev S16x96x96x12 : Shape := ⟨4, ![16, 96, 96, 12]⟩
abbrev S1x256 : Shape := ⟨2, ![1, 256]⟩
abbrev S12x256 : Shape := ⟨2, ![12, 256]⟩
abbrev S1x1 : Shape := ⟨2, ![1, 1]⟩
abbrev S16x96x96x256 : Shape := ⟨4, ![16, 96, 96, 256]⟩
abbrev S1x96x256 : Shape := ⟨3, ![1, 96, 256]⟩
abbrev S1x48x96x12 : Shape := ⟨4, ![1, 48, 96, 12]⟩
abbrev S1x48x96x256 : Shape := ⟨4, ![1, 48, 96, 256]⟩
abbrev S1x48x256 : Shape := ⟨3, ![1, 48, 256]⟩
abbrev S96x256 : Shape := ⟨2, ![96, 256]⟩
abbrev S48x256 : Shape := ⟨2, ![48, 256]⟩
abbrev S48x1x256 : Shape := ⟨3, ![48, 1, 256]⟩
abbrev S48x96x256 : Shape := ⟨3, ![48, 96, 256]⟩
abbrev S4608x256 : Shape := ⟨2, ![4608, 256]⟩
abbrev S48x96x12 : Shape := ⟨3, ![48, 96, 12]⟩
abbrev S4608x12 : Shape := ⟨2, ![4608, 12]⟩
abbrev S1x1x256 : Shape := ⟨3, ![1, 1, 256]⟩
abbrev S48x96 : Shape := ⟨2, ![48, 96]⟩

abbrev nBuf : Space → Nat
  | .hbm => 18
  | .vmem => 12
  | .smem => 0
  | _ => 0

abbrev bufTy : (tb : Table) → Fin (tcTables nBuf tb) → BufTy
  | .hbm, ⟨0, _⟩ => ⟨S16x96x256, .f32⟩
  | .hbm, ⟨1, _⟩ => ⟨S16x96x96x11, .f32⟩
  | .hbm, ⟨2, _⟩ => ⟨S256x256, .f32⟩
  | .hbm, ⟨3, _⟩ => ⟨S11x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S_, .f32⟩
  | .hbm, ⟨8, _⟩ => ⟨S16x96x96x1, .f32⟩
  | .hbm, ⟨9, _⟩ => ⟨S16x96x96x12, .f32⟩
  | .hbm, ⟨10, _⟩ => ⟨S1x256, .f32⟩
  | .hbm, ⟨11, _⟩ => ⟨S12x256, .f32⟩
  | .hbm, ⟨12, _⟩ => ⟨S256x256, .bf16⟩
  | .hbm, ⟨13, _⟩ => ⟨S12x256, .bf16⟩
  | .hbm, ⟨14, _⟩ => ⟨S1x256, .f32⟩
  | .hbm, ⟨15, _⟩ => ⟨S1x1, .f32⟩
  | .hbm, ⟨16, _⟩ => ⟨S16x96x96x256, .f32⟩
  | .hbm, ⟨17, _⟩ => ⟨S16x96x256, .f32⟩
  | .local _ .vmem, ⟨0, _⟩ => ⟨S1x96x256, .f32⟩
  | .local _ .vmem, ⟨1, _⟩ => ⟨S1x96x256, .f32⟩
  | .local _ .vmem, ⟨2, _⟩ => ⟨S1x48x96x12, .f32⟩
  | .local _ .vmem, ⟨3, _⟩ => ⟨S1x48x96x12, .f32⟩
  | .local _ .vmem, ⟨4, _⟩ => ⟨S256x256, .bf16⟩
  | .local _ .vmem, ⟨5, _⟩ => ⟨S12x256, .bf16⟩
  | .local _ .vmem, ⟨6, _⟩ => ⟨S1x256, .f32⟩
  | .local _ .vmem, ⟨7, _⟩ => ⟨S1x1, .f32⟩
  | .local _ .vmem, ⟨8, _⟩ => ⟨S1x48x96x256, .f32⟩
  | .local _ .vmem, ⟨9, _⟩ => ⟨S1x48x96x256, .f32⟩
  | .local _ .vmem, ⟨10, _⟩ => ⟨S1x48x256, .f32⟩
  | .local _ .vmem, ⟨11, _⟩ => ⟨S1x48x256, .f32⟩
  | _, _ => ⟨S16x96x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c48_i32 : BitVec 32 := 48#32
  let v2 : BitVec 32 := Scalar.muli arg1 c48_i32
  v2
def k0_off1 (i : grid0.Coords) : Fin 3 → Nat :=
  let c0_2 : Index := 0#32
  let arg1 : BitVec 32 := BitVec.ofNat 32 (i 1).val
  let c48_i32 : BitVec 32 := 48#32
  let v2 : BitVec 32 := Scalar.muli arg1 c48_i32
  let v3 : BitVec 32 := v2
  let v4 : Index := Scalar.indexCast v3
  let c0_3 : Index := 0#32
  ![0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x96x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x48x96x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S12x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x48x96x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x48x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S16x96x96x1 : S_.BroadcastsInDim S16x96x96x1 (![] : Fin 0 → Fin S16x96x96x1.rank)
  concatenates_S16x96x96x11_S16x96x96x1_S16x96x96x12_d3 : Shape.Concatenates [S16x96x96x11, S16x96x96x1] S16x96x96x12 3
  bcast_S256_S1x256_1 : S256.BroadcastsInDim S1x256 (![1] : Fin 1 → Fin S1x256.rank)
  concatenates_S11x256_S1x256_S12x256_d0 : Shape.Concatenates [S11x256, S1x256] S12x256 0
  bitsLt_bf16_f32 : FTy.bits .bf16 < FTy.bits .f32
  shapeCasts_S256x1_S1x256 : S256x1.ShapeCasts S1x256
  shapeCasts_S1_S1x1 : S1.ShapeCasts S1x1
  inb_S1x96x256_S1x96x256_0_0_0 : ∀ a, (![0, 0, 0] : Fin 3 → Nat) a + S1x96x256.size a ≤ S1x96x256.size a
  h_S1x96x256 : 0 < S1x96x256.numel
  shapeCasts_S1x96x256_S96x256 : S1x96x256.ShapeCasts S96x256
  h_S1x48x256 : 0 < S1x48x256.numel
  shapeCasts_S1x48x256_S48x256 : S1x48x256.ShapeCasts S48x256
  shapeCasts_S48x256_S48x1x256 : S48x256.ShapeCasts S48x1x256
  shapeCasts_S96x256_S1x96x256 : S96x256.ShapeCasts S1x96x256
  broadcasts_S48x1x256_S48x96x256 : S48x1x256.Broadcasts S48x96x256
  broadcasts_S1x96x256_S48x96x256 : S1x96x256.Broadcasts S48x96x256
  inb_S1x48x96x256_S1x48x96x256_0_0_0_0 : ∀ a, (![0, 0, 0, 0] : Fin 4 → Nat) a + S1x48x96x256.size a ≤ S1x48x96x256.size a
  h_S1x48x96x256 : 0 < S1x48x96x256.numel
  shapeCasts_S1x48x96x256_S48x96x256 : S1x48x96x256.ShapeCasts S48x96x256
  shapeCasts_S48x96x256_S1x48x96x256 : S48x96x256.ShapeCasts S1x48x96x256
  shapeCasts_S48x96x256_S4608x256 : S48x96x256.ShapeCasts S4608x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4608x256_S48x96x256 : S4608x256.ShapeCasts S48x96x256
  inb_S1x48x96x12_S1x48x96x12_0_0_0_0 : ∀ a, (![0, 0, 0, 0] : Fin 4 → Nat) a + S1x48x96x12.size a ≤ S1x48x96x12.size a
  h_S1x48x96x12 : 0 < S1x48x96x12.numel
  shapeCasts_S1x48x96x12_S48x96x12 : S1x48x96x12.ShapeCasts S48x96x12
  shapeCasts_S48x96x12_S4608x12 : S48x96x12.ShapeCasts S4608x12
  inb_S12x256_S12x256_0_0 : ∀ a, (![0, 0] : Fin 2 → Nat) a + S12x256.size a ≤ S12x256.size a
  h_S12x256 : 0 < S12x256.numel
  shapeCasts_S12x256_S12x256 : S12x256.ShapeCasts S12x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S48x96x256 : S1x1x256.Broadcasts S48x96x256
  reduces_S48x96x256_S48x96 : S48x96x256.Reduces [2] S48x96
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S48x96 : S1x1.Broadcasts S48x96
  inb_S1x48x256_S1x48x256_0_0_0 : ∀ a, (![0, 0, 0] : Fin 3 → Nat) a + S1x48x256.size a ≤ S1x48x256.size a
  shapeCasts_S48x256_S1x48x256 : S48x256.ShapeCasts S1x48x256
  dot_S4608x256_S256x256_S4608x256_1_0_0_1_n_n_wf : DotDims.WF S4608x256 S256x256 S4608x256 [1] [0] [0] [1] [] []
  dot_S4608x12_S12x256_S4608x256_1_0_0_1_n_n_wf : DotDims.WF S4608x12 S12x256 S4608x256 [1] [0] [0] [1] [] []
  dot_S48x96_S96x256_S48x256_1_0_0_1_n_n_wf : DotDims.WF S48x96 S96x256 S48x256 [1] [0] [0] [1] [] []
  hrank0 : 0 < grid0.rank
  k0_mult1_dvd : ∀ i : grid0.Coords, 8 ∣ (k0_mult1 i).toNat
  k0_off1_inb : ∀ i : grid0.Coords, ∀ a, (k0_off1 i) a + S1x48x256.size a ≤ S1x96x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x256.size a ≤ S16x96x256.size a
  hwx0_0 : ∀ i : grid0.Coords, EltTy.bits .f32 = 32 ∨ (Rect.block (s := S16x96x256) S1x96x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x48x96x12.size a ≤ S16x96x96x12.size a
  hwx0_1 : ∀ i : grid0.Coords, EltTy.bits .f32 = 32 ∨ (Rect.block (s := S16x96x96x12) S1x48x96x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x256.size a ≤ S12x256.size a
  hwx0_3 : ∀ i : grid0.Coords, EltTy.bits .bf16 = 32 ∨ (Rect.block (s := S12x256) S12x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x48x96x256.size a ≤ S16x96x96x256.size a
  hwx0_6 : ∀ i : grid0.Coords, EltTy.bits .f32 = 32 ∨ (Rect.block (s := S16x96x96x256) S1x48x96x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x48x256.size a ≤ S16x96x256.size a
  hwx0_7 : ∀ i : grid0.Coords, EltTy.bits .f32 = 32 ∨ (Rect.block (s := S16x96x256) S1x48x256.size (cc0_transform_7 i) (hinb0_7 i)).WholeWords (EltTy.packing .f32)

variable [Facts₀]

def dot_S4608x256_S256x256_S4608x256_1_0_0_1_n_n : DotDims S4608x256 S256x256 S4608x256 where
  lhsContracting := [1]
  rhsContracting := [0]
  lhsNonContracting := [0]
  rhsNonContracting := [1]
  lhsBatch := []
  rhsBatch := []
  wf := dot_S4608x256_S256x256_S4608x256_1_0_0_1_n_n_wf
def dot_S4608x12_S12x256_S4608x256_1_0_0_1_n_n : DotDims S4608x12 S12x256 S4608x256 where
  lhsContracting := [1]
  rhsContracting := [0]
  lhsNonContracting := [0]
  rhsNonContracting := [1]
  lhsBatch := []
  rhsBatch := []
  wf := dot_S4608x12_S12x256_S4608x256_1_0_0_1_n_n_wf
def dot_S48x96_S96x256_S48x256_1_0_0_1_n_n : DotDims S48x96 S96x256 S48x256 where
  lhsContracting := [1]
  rhsContracting := [0]
  lhsNonContracting := [0]
  rhsNonContracting := [1]
  lhsBatch := []
  rhsBatch := []
  wf := dot_S48x96_S96x256_S48x256_1_0_0_1_n_n_wf

abbrev win0_0 : Pipeline.Window sig grid0 :=
  Pipeline.Window.ofSpec (Memref.whole main_arg0) S1x96x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x48x96x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S12x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1x48x96x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1x48x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x96x256 : Shape := ⟨3, ![16, 96, 256]⟩
abbrev S16x96x96x11 : Shape := ⟨4, ![16, 96, 96, 11]⟩
abbrev S256x256 : Shape := ⟨2, ![256, 256]⟩
abbrev S11x256 : Shape := ⟨2, ![11, 256]⟩
abbrev S256 : Shape := ⟨1, ![256]⟩
abbrev S256x1 : Shape := ⟨2, ![256, 1]⟩
abbrev S1 : Shape := ⟨1, ![1]⟩
abbrev S16x1x96x256 : Shape := ⟨4, ![16, 1, 96, 256]⟩
abbrev S16x96x1x256 : Shape := ⟨4, ![16, 96, 1, 256]⟩
abbrev S16x96x96x256 : Shape := ⟨4, ![16, 96, 96, 256]⟩
abbrev S1x1x1x256 : Shape := ⟨4, ![1, 1, 1, 256]⟩
abbrev S_ : Shape := ⟨0, ![]⟩
abbrev S16x96x96x1 : Shape := ⟨4, ![16, 96, 96, 1]⟩
abbrev S1x1x1x1 : Shape := ⟨4, ![1, 1, 1, 1]⟩
abbrev S16x96x96 : Shape := ⟨3, ![16, 96, 96]⟩

abbrev nBuf : Space → Nat
  | .hbm => 36
  | .vmem => 0
  | .smem => 0
  | _ => 0

abbrev bufTy : (tb : Table) → Fin (tcTables nBuf tb) → BufTy
  | .hbm, ⟨0, _⟩ => ⟨S16x96x256, .f32⟩
  | .hbm, ⟨1, _⟩ => ⟨S16x96x96x11, .f32⟩
  | .hbm, ⟨2, _⟩ => ⟨S256x256, .f32⟩
  | .hbm, ⟨3, _⟩ => ⟨S11x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S16x1x96x256, .f32⟩
  | .hbm, ⟨8, _⟩ => ⟨S16x96x1x256, .f32⟩
  | .hbm, ⟨9, _⟩ => ⟨S16x96x96x256, .f32⟩
  | .hbm, ⟨10, _⟩ => ⟨S16x96x96x256, .f32⟩
  | .hbm, ⟨11, _⟩ => ⟨S16x96x96x256, .f32⟩
  | .hbm, ⟨12, _⟩ => ⟨S16x96x96x256, .f32⟩
  | .hbm, ⟨13, _⟩ => ⟨S16x96x96x256, .f32⟩
  | .hbm, ⟨14, _⟩ => ⟨S16x96x96x256, .f32⟩
  | .hbm, ⟨15, _⟩ => ⟨S1x1x1x256, .f32⟩
  | .hbm, ⟨16, _⟩ => ⟨S16x96x96x256, .f32⟩
  | .hbm, ⟨17, _⟩ => ⟨S16x96x96x256, .f32⟩
  | .hbm, ⟨18, _⟩ => ⟨S_, .f32⟩
  | .hbm, ⟨19, _⟩ => ⟨S16x96x96x256, .f32⟩
  | .hbm, ⟨20, _⟩ => ⟨S16x96x96x256, .f32⟩
  | .hbm, ⟨21, _⟩ => ⟨S16x96x96x1, .f32⟩
  | .hbm, ⟨22, _⟩ => ⟨S1x1x1x1, .f32⟩
  | .hbm, ⟨23, _⟩ => ⟨S16x96x96x1, .f32⟩
  | .hbm, ⟨24, _⟩ => ⟨S16x96x96x1, .f32⟩
  | .hbm, ⟨25, _⟩ => ⟨S16x96x96x1, .f32⟩
  | .hbm, ⟨26, _⟩ => ⟨S16x96x96x1, .f32⟩
  | .hbm, ⟨27, _⟩ => ⟨S_, .f32⟩
  | .hbm, ⟨28, _⟩ => ⟨S16x96x96x1, .f32⟩
  | .hbm, ⟨29, _⟩ => ⟨S16x96x96x1, .f32⟩
  | .hbm, ⟨30, _⟩ => ⟨S_, .f32⟩
  | .hbm, ⟨31, _⟩ => ⟨S16x96x96x1, .f32⟩
  | .hbm, ⟨32, _⟩ => ⟨S16x96x96x1, .f32⟩
  | .hbm, ⟨33, _⟩ => ⟨S_, .f32⟩
  | .hbm, ⟨34, _⟩ => ⟨S16x96x96, .f32⟩
  | .hbm, ⟨35, _⟩ => ⟨S16x96x256, .f32⟩
  | _, _ => ⟨S16x96x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S16x96x256_S16x1x96x256_0_2_3 : S16x96x256.BroadcastsInDim S16x1x96x256 (![0, 2, 3] : Fin 3 → Fin S16x1x96x256.rank)
  bcast_S16x96x256_S16x96x1x256_0_1_3 : S16x96x256.BroadcastsInDim S16x96x1x256 (![0, 1, 3] : Fin 3 → Fin S16x96x1x256.rank)
  bcast_S16x1x96x256_S16x96x96x256_0_1_2_3 : S16x1x96x256.BroadcastsInDim S16x96x96x256 (![0, 1, 2, 3] : Fin 4 → Fin S16x96x96x256.rank)
  bcast_S16x96x1x256_S16x96x96x256_0_1_2_3 : S16x96x1x256.BroadcastsInDim S16x96x96x256 (![0, 1, 2, 3] : Fin 4 → Fin S16x96x96x256.rank)
  bcast_S256_S1x1x1x256_3 : S256.BroadcastsInDim S1x1x1x256 (![3] : Fin 1 → Fin S1x1x1x256.rank)
  bcast_S1x1x1x256_S16x96x96x256_0_1_2_3 : S1x1x1x256.BroadcastsInDim S16x96x96x256 (![0, 1, 2, 3] : Fin 4 → Fin S16x96x96x256.rank)
  bcast_S_S16x96x96x256 : S_.BroadcastsInDim S16x96x96x256 (![] : Fin 0 → Fin S16x96x96x256.rank)
  bcast_S1_S1x1x1x1_3 : S1.BroadcastsInDim S1x1x1x1 (![3] : Fin 1 → Fin S1x1x1x1.rank)
  bcast_S1x1x1x1_S16x96x96x1_0_1_2_3 : S1x1x1x1.BroadcastsInDim S16x96x96x1 (![0, 1, 2, 3] : Fin 4 → Fin S16x96x96x1.rank)
  bcast_S_S16x96x96x1 : S_.BroadcastsInDim S16x96x96x1 (![] : Fin 0 → Fin S16x96x96x1.rank)
  reducesTo_S16x96x96x1_S16x96x96_d3 : S16x96x96x1.ReducesTo [3] S16x96x96
  h_S_ : 0 < S_.numel
  dot_S16x96x96x256_S256x256_S16x96x96x256_3_0_012_1_n_n_wf : DotDims.WF S16x96x96x256 S256x256 S16x96x96x256 [3] [0] [0, 1, 2] [1] [] []
  dot_S16x96x96x11_S11x256_S16x96x96x256_3_0_012_1_n_n_wf : DotDims.WF S16x96x96x11 S11x256 S16x96x96x256 [3] [0] [0, 1, 2] [1] [] []
  dot_S16x96x96x256_S256x1_S16x96x96x1_3_0_012_1_n_n_wf : DotDims.WF S16x96x96x256 S256x1 S16x96x96x1 [3] [0] [0, 1, 2] [1] [] []
  dot_S16x96x96_S16x96x256_S16x96x256_2_1_1_2_0_0_wf : DotDims.WF S16x96x96 S16x96x256 S16x96x256 [2] [1] [1] [2] [0] [0]

variable [Facts₀]

def dot_S16x96x96x256_S256x256_S16x96x96x256_3_0_012_1_n_n : DotDims S16x96x96x256 S256x256 S16x96x96x256 where
  lhsContracting := [3]
  rhsContracting := [0]
  lhsNonContracting := [0, 1, 2]
  rhsNonContracting := [1]
  lhsBatch := []
  rhsBatch := []
  wf := dot_S16x96x96x256_S256x256_S16x96x96x256_3_0_012_1_n_n_wf
def dot_S16x96x96x11_S11x256_S16x96x96x256_3_0_012_1_n_n : DotDims S16x96x96x11 S11x256 S16x96x96x256 where
  lhsContracting := [3]
  rhsContracting := [0]
  lhsNonContracting := [0, 1, 2]
  rhsNonContracting := [1]
  lhsBatch := []
  rhsBatch := []
  wf := dot_S16x96x96x11_S11x256_S16x96x96x256_3_0_012_1_n_n_wf
def dot_S16x96x96x256_S256x1_S16x96x96x1_3_0_012_1_n_n : DotDims S16x96x96x256 S256x1 S16x96x96x1 where
  lhsContracting := [3]
  rhsContracting := [0]
  lhsNonContracting := [0, 1, 2]
  rhsNonContracting := [1]
  lhsBatch := []
  rhsBatch := []
  wf := dot_S16x96x96x256_S256x1_S16x96x96x1_3_0_012_1_n_n_wf
def dot_S16x96x96_S16x96x256_S16x96x256_2_1_1_2_0_0 : DotDims S16x96x96 S16x96x256 S16x96x256 where
  lhsContracting := [2]
  rhsContracting := [1]
  lhsNonContracting := [1]
  rhsNonContracting := [2]
  lhsBatch := [0]
  rhsBatch := [0]
  wf := dot_S16x96x96_S16x96x256_S16x96x256_2_1_1_2_0_0_wf

class Facts : Prop extends Facts₀ where

variable [Facts]
-- ==== Proof.Pieces.lean ====
/-
  What one grid point leaves in its two output blocks, as the body's arithmetic of the blocks it was handed.

  At point (b, it) the body holds the whole [1,96,256] block of the inputs (all 96 rows of batch b) and reads it
  twice: whole, and through the 48 rows starting at row 48·it.  It stores ONE covering value into each output block:
  the pair block, and the context block.  Nothing it reads back from an output block reaches a stored value.
-/
import proofs.«133173_j61744449847590_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The 48 query rows of the resident block at grid point `i`: rows 48·it … 48·it + 47 of its 96. -/
def queryRows (i : grid0.Coords) (x0 : Vec F S1x96x256 .f32) : Vec F S1x48x256 .f32 :=
  View.ld x0 (Rect.unit (s := S1x96x256) (k0_off1 i) S1x48x256.size (k0_off1_inb i))

/-- The pair block a point leaves: the body's pair payload of the resident block and its query rows. -/
theorem pair_block (c : Dev nD) (i : grid0.Coords) (arg2 : Memref sig .tc .vmem S1x96x256 .f32) (harg2 : arg2.IsWhole) (arg3 : Memref sig .tc .vmem S1x48x96x12 .f32) (harg3 : arg3.IsWhole) (arg4 : Memref sig .tc .vmem S256x256 .bf16) (harg4 : arg4.IsWhole) (arg5 : Memref sig .tc .vmem S12x256 .bf16) (harg5 : arg5.IsWhole) (arg6 : Memref sig .tc .vmem S1x256 .f32) (harg6 : arg6.IsWhole) (arg7 : Memref sig .tc .vmem S1x1 .f32) (harg7 : arg7.IsWhole) (arg8 : Memref sig .tc .vmem S1x48x96x256 .f32) (harg8 : arg8.IsWhole) (arg9 : Memref sig .tc .vmem S1x48x256 .f32) (harg9 : arg9.IsWhole)
    (x0 : Vec F S1x96x256 .f32) (x1 : Vec F S1x48x96x12 .f32) (x2 : Vec F S256x256 .bf16) (x3 : Vec F S12x256 .bf16) (x4 : Vec F S1x256 .f32) (x5 : Vec F S1x1 .f32) :
    out0_A_6 c i arg2 harg2 arg3 harg3 arg4 harg4 arg5 harg5 arg6 harg6 arg7 harg7 arg8 harg8 arg9 harg9 x0 x1 x2 x3 x4 x5 = k0_pay4 x0 (queryRows i x0) := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  rw [View.canon_unit_zero zeros4]
  simp only [View.readAt_eq_ld, harg2.read_unread, View.ld_unit_zero (S := S1x96x256) zeros3]
  rfl

/-- The context block a point leaves: the body's context payload of the resident block, the hidden activations
    (themselves a payload of the resident block, its query rows, both weight blocks and the feature block), the score
    weights and the score bias. -/
theorem context_block (c : Dev nD) (i : grid0.Coords) (arg2 : Memref sig .tc .vmem S1x96x256 .f32) (harg2 : arg2.IsWhole) (arg3 : Memref sig .tc .vmem S1x48x96x12 .f32) (harg3 : arg3.IsWhole) (arg4 : Memref sig .tc .vmem S256x256 .bf16) (harg4 : arg4.IsWhole) (arg5 : Memref sig .tc .vmem S12x256 .bf16) (harg5 : arg5.IsWhole) (arg6 : Memref sig .tc .vmem S1x256 .f32) (harg6 : arg6.IsWhole) (arg7 : Memref sig .tc .vmem S1x1 .f32) (harg7 : arg7.IsWhole) (arg8 : Memref sig .tc .vmem S1x48x96x256 .f32) (harg8 : arg8.IsWhole) (arg9 : Memref sig .tc .vmem S1x48x256 .f32) (harg9 : arg9.IsWhole)
    (x0 : Vec F S1x96x256 .f32) (x1 : Vec F S1x48x96x12 .f32) (x2 : Vec F S256x256 .bf16) (x3 : Vec F S12x256 .bf16) (x4 : Vec F S1x256 .f32) (x5 : Vec F S1x1 .f32) :
    out0_A_7 c i arg2 harg2 arg3 harg3 arg4 harg4 arg5 harg5 arg6 harg6 arg7 harg7 arg8 harg8 arg9 harg9 x0 x1 x2 x3 x4 x5
      = k0_pay1 (k0_pay2 x0) (k0_pay5 x0 (queryRows i x0) x2 x1 x3) (k0_pay6 x4) x5 := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero zeros3]
  simp only [View.readAt_eq_ld, harg2.read_unread, harg3.read_unread, harg4.read_unread, harg5.read_unread,
    harg6.read_unread, harg7.read_unread, View.ld_unit_zero (S := S1x96x256) zeros3,
    View.ld_unit_zero (S := S1x48x96x12) zeros4, View.ld_unit_zero (S := S256x256) zeros2,
    View.ld_unit_zero (S := S12x256) zeros2, View.ld_unit_zero (S := S1x256) zeros2, View.ld_unit_zero (S := S1x1) zeros2]
  rfl

end Cert.KernelIdeal.Pieces

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibMergeRows.lean ====
/-
  A stack of matrices `[G, m, n]` and the same entries laid out as one tall matrix `[G·m, n]` (row `g·m + a` is
  row `a` of matrix `g`), a block of columns of a matrix, and the "keep the axis" forms of a row statistic
  (`[G, m] → [G, m, 1] → [G, m, n]`: the statistic of row `(g, a)` repeated along the row), each read at an index.
-/
import Idealize.ShloMosaic.Lib.Pipeline.Value
import Idealize.ShloMosaic.Lib.ValueIdx

namespace Cert.Lib.MergeRows

open Idealize.ShloMosaic Idealize.ShloMosaic.ValueIdx

variable {α : Type} {G m n R : Nat}

/-- The stack read as one tall matrix: row `r = g·m + a`, column `c`, is entry `(g, a, c)`. -/
theorem merge_apply (x : (⟨3, ![G, m, n]⟩ : Shape).Idx → α) (h : (⟨3, ![G, m, n]⟩ : Shape).ShapeCasts ⟨2, ![R, n]⟩)
    (g : Fin G) (a : Fin m) (c : Fin n) (r : Fin R) (hr : r.val = g.val * m + a.val) :
    shapeCast ⟨2, ![R, n]⟩ x h (ix2 r c) = x (ix3 g a c) :=
  shapeCast_apply x h (ix2 r c) (ix3 g a c) (by
    rw [Shape.rowMajor_val_three, Shape.rowMajor_val_two]
    show (g.val * m + a.val) * n + c.val = r.val * n + c.val
    rw [hr])

/-- The tall matrix read as a stack: entry `(g, a, c)` is row `r = g·m + a`, column `c`. -/
theorem split_apply (y : (⟨2, ![R, n]⟩ : Shape).Idx → α) (h : (⟨2, ![R, n]⟩ : Shape).ShapeCasts ⟨3, ![G, m, n]⟩)
    (g : Fin G) (a : Fin m) (c : Fin n) (r : Fin R) (hr : r.val = g.val * m + a.val) :
    shapeCast ⟨3, ![G, m, n]⟩ y h (ix3 g a c) = y (ix2 r c) :=
  shapeCast_apply y h (ix3 g a c) (ix2 r c) (by
    rw [Shape.rowMajor_val_three, Shape.rowMajor_val_two]
    show r.val * n + c.val = (g.val * m + a.val) * n + c.val
    rw [hr])

/-- Columns `off .. off + n` of a matrix with `N` columns: column `c` of the block is column `off + c`. -/
theorem columns_apply {N : Nat} (off : Nat) (y : (⟨2, ![R, N]⟩ : Shape).Idx → α)
    (h : (⟨2, ![R, N]⟩ : Shape).Slices ![0, off] ⟨2, ![R, n]⟩) (r : Fin R) (c : Fin n) (c' : Fin N)
    (hc : c'.val = off + c.val) :
    extractStridedSlice ⟨2, ![R, n]⟩ ![0, off] y h (ix2 r c) = y (ix2 r c') :=
  extractStridedSlice_apply ![0, off] y h (ix2 r c) (ix2 r c') (fun a => match a with
    | ⟨0, _⟩ => by show r.val = 0 + r.val; omega
    | ⟨1, _⟩ => by show c'.val = off + c.val; exact hc)

/-- A statistic per row given a trailing unit axis: entry `(g, a, 0)` is the statistic of row `(g, a)`. -/
theorem keep_apply (v : (⟨2, ![G, m]⟩ : Shape).Idx → α) (h : (⟨2, ![G, m]⟩ : Shape).ShapeCasts ⟨3, ![G, m, 1]⟩)
    (g : Fin G) (a : Fin m) :
    shapeCast ⟨3, ![G, m, 1]⟩ v h (ix3 g a (0 : Fin 1)) = v (ix2 g a) :=
  shapeCast_apply v h (ix3 g a (0 : Fin 1)) (ix2 g a) (by
    rw [Shape.rowMajor_val_three, Shape.rowMajor_val_two]
    show g.val * m + a.val = (g.val * m + a.val) * 1 + 0
    omega)

/-- That unit axis repeated along the row: entry `(g, a, c)` is entry `(g, a, 0)`. -/
theorem along_apply (w : (⟨3, ![G, m, 1]⟩ : Shape).Idx → α)
    (h : (⟨3, ![G, m, 1]⟩ : Shape).Broadcasts ⟨3, ![G, m, n]⟩) (g : Fin G) (a : Fin m) (c : Fin n) :
    broadcastTo ⟨3, ![G, m, n]⟩ w h (ix3 g a c) = w (ix3 g a (0 : Fin 1)) :=
  broadcastTo_apply w h (ix3 g a c) (ix3 g a (0 : Fin 1)) (fun ax => match ax with
    | ⟨0, _⟩ => by
      show g.val = if G = 1 then 0 else g.val
      split
      · have := g.isLt; omega
      · rfl
    | ⟨1, _⟩ => by
      show a.val = if m = 1 then 0 else a.val
      split
      · have := a.isLt; omega
      · rfl
    | ⟨2, _⟩ => rfl)

end Cert.Lib.MergeRows
-- ==== Proof.Payloads.lean ====
/-
  The body's arithmetic read at an index, on the extended reals.

  Write X for the resident [1,96,256] block (the 96 rows of one batch), Q for its 48 query rows, Wa [256,256] and
  Wb [12,256] for the two weight blocks, B [1,48,96,12] for the feature block, s [1,256] and d [1,1] for the score
  weights and bias.  Then, for a query row p, a key row q and channels h, k:

    pair    (p,q,h) = Q(p,h) + X(q,h)
    hidden  (p,q,k) = max (Σ_h pair(p,q,h)·Wa(h,k) + Σ_{e<12} B(p,q,e)·Wb(e,k)) 0
    context (p,h)   = Σ_q logistic (Σ_k hidden(p,q,k)·s(k) + d) · X(q,h)

  The casts between [48,96,·] and [4608,·] only re-lay rows (row 96·p + q is the pair (p,q)); a change of float
  format is the identity here; a product into a zero accumulator and a lane sum from zero are plain finite sums.
-/
import proofs.«133173_j61744449847590_2_alg».proof.Proof.Gen.KernelIdeal.Skeleton
import proofs.«133173_j61744449847590_2_alg».proof.Proof.LibPlainProduct
import proofs.«133173_j61744449847590_2_alg».proof.Proof.LibMergeRows
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.ShloMosaic.TcCoe
open scoped BigOperators

namespace Cert.KernelIdeal.Payloads

/-! ## Unit axes added and repeated, read at an index -/

section layout
variable {α : Type} {a b c : Nat}

/-- `[a, c]` viewed `[a, 1, c]`: entry `(p, 0, r)` is entry `(p, r)`. -/
theorem cast_mid_unit (v : (⟨2, ![a, c]⟩ : Shape).Idx → α) (h : (⟨2, ![a, c]⟩ : Shape).ShapeCasts ⟨3, ![a, 1, c]⟩)
    (p : Fin a) (r : Fin c) : shapeCast ⟨3, ![a, 1, c]⟩ v h (ix3 p (0 : Fin 1) r) = v (ix2 p r) :=
  shapeCast_apply v h (ix3 p (0 : Fin 1) r) (ix2 p r) (by
    rw [Shape.rowMajor_val_three, Shape.rowMajor_val_two]
    show p.val * c + r.val = (p.val * 1 + 0) * c + r.val
    rw [Nat.mul_one, Nat.add_zero])

/-- `[a, 1, c]` repeated along its middle axis: entry `(p, q, r)` is entry `(p, 0, r)`. -/
theorem spread_mid (v : (⟨3, ![a, 1, c]⟩ : Shape).Idx → α) (h : (⟨3, ![a, 1, c]⟩ : Shape).Broadcasts ⟨3, ![a, b, c]⟩)
    (p : Fin a) (q : Fin b) (r : Fin c) : broadcastTo ⟨3, ![a, b, c]⟩ v h (ix3 p q r) = v (ix3 p (0 : Fin 1) r) :=
  broadcastTo_apply v h (ix3 p q r) (ix3 p (0 : Fin 1) r) (fun ax => match ax with
    | ⟨0, _⟩ => by
      show p.val = if a = 1 then 0 else p.val
      split
      · have := p.isLt; omega
      · rfl
    | ⟨1, _⟩ => rfl
    | ⟨2, _⟩ => by
      show r.val = if c = 1 then 0 else r.val
      split
      · have := r.isLt; omega
      · rfl)

/-- `[1, b, c]` repeated along its leading axis: entry `(p, q, r)` is entry `(0, q, r)`. -/
theorem spread_lead (v : (⟨3, ![1, b, c]⟩ : Shape).Idx → α) (h : (⟨3, ![1, b, c]⟩ : Shape).Broadcasts ⟨3, ![a, b, c]⟩)
    (p : Fin a) (q : Fin b) (r : Fin c) : broadcastTo ⟨3, ![a, b, c]⟩ v h (ix3 p q r) = v (ix3 (0 : Fin 1) q r) :=
  broadcastTo_apply v h (ix3 p q r) (ix3 (0 : Fin 1) q r) (fun ax => match ax with
    | ⟨0, _⟩ => rfl
    | ⟨1, _⟩ => by
      show q.val = if b = 1 then 0 else q.val
      split
      · have := q.isLt; omega
      · rfl
    | ⟨2, _⟩ => by
      show r.val = if c = 1 then 0 else r.val
      split
      · have := r.isLt; omega
      · rfl)

/-- `[1, 1, c]` repeated along both leading axes: entry `(p, q, r)` is entry `(0, 0, r)`. -/
theorem spread_lead_two (v : (⟨3, ![1, 1, c]⟩ : Shape).Idx → α) (h : (⟨3, ![1, 1, c]⟩ : Shape).Broadcasts ⟨3, ![a, b, c]⟩)
    (p : Fin a) (q : Fin b) (r : Fin c) :
    broadcastTo ⟨3, ![a, b, c]⟩ v h (ix3 p q r) = v (ix3 (0 : Fin 1) (0 : Fin 1) r) :=
  broadcastTo_apply v h (ix3 p q r) (ix3 (0 : Fin 1) (0 : Fin 1) r) (fun ax => match ax with
    | ⟨0, _⟩ => rfl
    | ⟨1, _⟩ => rfl
    | ⟨2, _⟩ => by
      show r.val = if c = 1 then 0 else r.val
      split
      · have := r.isLt; omega
      · rfl)

/-- A `[1, 1]` array repeated to `[a, b]`: every entry is its one entry. -/
theorem spread_all (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) :=
  broadcastTo_apply v h (ix2 p q) (ix2 (0 : Fin 1) (0 : Fin 1)) (fun ax => match ax with
    | ⟨0, _⟩ => rfl
    | ⟨1, _⟩ => rfl)

end layout

open Cert.KernelIdeal Cert.KernelIdeal.Gen

/-! ## The payloads -/

/-- The resident block with its unit axis dropped. -/
theorem resident_at (v0 : Vec Ideal S1x96x256 .f32) (j : Fin 96) (h : Fin 256) :
    k0_pay2 v0 (ix2 j h) = v0 (ix3 (0 : Fin 1) j h) := by
  unfold k0_pay2
  exact shapeCast_1ab_ab_apply v0 _ j h

/-- The pair value: query row `p` plus key row `q`. -/
theorem pair_at (v0 : Vec Ideal S1x96x256 .f32) (v5 : Vec Ideal S1x48x256 .f32) (p : Fin 48) (q : Fin 96) (h : Fin 256) :
    k0_pay3 v0 v5 (ix3 p q h) = v5 (ix3 (0 : Fin 1) p h) + v0 (ix3 (0 : Fin 1) q h) := by
  unfold k0_pay3
  refine (addf_apply _ _ _).trans ?_
  refine congrArg₂ (· + ·) ?_ ?_
  · refine (spread_mid _ _ p q h).trans ?_
    refine (cast_mid_unit _ _ p h).trans ?_
    exact shapeCast_1ab_ab_apply v5 _ p h
  · refine (spread_lead _ _ p q h).trans ?_
    refine (shapeCast_ab_1ab_apply _ _ (0 : Fin 1) q h).trans ?_
    exact resident_at v0 q h

/-- The pair block as stored: the pair value under a leading unit axis. -/
theorem pair_block_at (v0 : Vec Ideal S1x96x256 .f32) (v5 : Vec Ideal S1x48x256 .f32) (p : Fin 48) (q : Fin 96) (h : Fin 256) :
    k0_pay4 v0 v5 (ix4 (0 : Fin 1) p q h) = v5 (ix3 (0 : Fin 1) p h) + v0 (ix3 (0 : Fin 1) q h) := by
  unfold k0_pay4
  exact (shapeCast_abc_1abc_apply _ _ (0 : Fin 1) p q h).trans (pair_at v0 v5 p q h)

/-- Row `96·p + q` of the merged `[4608, ·]` layout is the pair `(p, q)`. -/
abbrev mergedRow (p : Fin 48) (q : Fin 96) : Fin 4608 := ⟨p.val * 96 + q.val, by have := p.isLt; have := q.isLt; omega⟩

/-- The hidden activation of the pair `(p, q)`, channel `k`: both products as sums, their sum, its positive part. -/
theorem hidden_at (v0 : Vec Ideal S1x96x256 .f32) (v5 : Vec Ideal S1x48x256 .f32) (v17 : Vec Ideal S256x256 .bf16)
    (v21 : Vec Ideal S1x48x96x12 .f32) (v25 : Vec Ideal S12x256 .bf16) (p : Fin 48) (q : Fin 96) (k : Fin 256) :
    k0_pay5 v0 v5 v17 v21 v25 (ix3 p q k)
      = max (∑ h : Fin 256, (v5 (ix3 (0 : Fin 1) p h) + v0 (ix3 (0 : Fin 1) q h)) * v17 (ix2 h k)
              + ∑ e : Fin 12, v21 (ix4 (0 : Fin 1) p q e) * v25 (ix2 e k))
            (Ideal.ofBits .f32 0x00000000#32) := by
  unfold k0_pay5
  refine (maximumf_apply _ _ _).trans ?_
  refine congrArg₂ max ?_ rfl
  refine (addf_apply _ _ _).trans ?_
  refine congrArg₂ (· + ·) ?_ ?_
  · refine (Cert.Lib.MergeRows.split_apply _ _ p q k (mergedRow p q) rfl).trans ?_
    refine (Cert.PlainProduct.matmul_plain_apply _ rfl none _ _ (mergedRow p q) k).trans ?_
    refine Finset.sum_congr rfl fun h _ => ?_
    refine congrArg₂ (· * ·) ?_ ?_
    · refine (Cert.Lib.MergeRows.merge_apply _ _ p q h (mergedRow p q) rfl).trans ?_
      exact pair_at v0 v5 p q h
    · exact congrFun (shapeCast_self v17 _) (ix2 h k)
  · refine (Cert.Lib.MergeRows.split_apply _ _ p q k (mergedRow p q) rfl).trans ?_
    refine (Cert.PlainProduct.matmul_plain_apply _ rfl none _ _ (mergedRow p q) k).trans ?_
    refine Finset.sum_congr rfl fun e _ => ?_
    refine congrArg₂ (· * ·) ?_ ?_
    · refine (Cert.Lib.MergeRows.merge_apply _ _ p q e (mergedRow p q) rfl).trans ?_
      exact shapeCast_1abc_abc_apply v21 _ p q e
    · exact congrFun (shapeCast_self v25 _) (ix2 e k)

/-- The context of query row `p`, channel `h`: the key rows weighted by the logistic of their logits. -/
theorem context_at (v1 : FVec Ideal S96x256 .f32) (v31 : FVec Ideal S48x96x256 .f32) (v33 : FVec Ideal S1x256 .f32)
    (v38 : Vec Ideal S1x1 .f32) (p : Fin 48) (h : Fin 256) :
    k0_pay1 v1 v31 v33 v38 (ix3 (0 : Fin 1) p h)
      = ∑ j : Fin 96, Ideal.logistic (∑ k : Fin 256, v31 (ix3 p j k) * v33 (ix2 (0 : Fin 1) k)
                                        + v38 (ix2 (0 : Fin 1) (0 : Fin 1))) * v1 (ix2 j h) := by
  unfold k0_pay1
  refine (shapeCast_ab_1ab_apply _ _ (0 : Fin 1) p h).trans ?_
  refine (Cert.PlainProduct.matmul_plain_apply _ rfl (some .fp32) _ _ p h).trans ?_
  refine Finset.sum_congr rfl fun j _ => ?_
  refine congrArg₂ (· * ·) ?_ rfl
  refine congrArg Ideal.logistic ?_
  refine (addf_apply _ _ _).trans ?_
  refine congrArg₂ (· + ·) ?_ ?_
  · refine (Ideal.multiReduction_add_single _ _ reduces_S48x96x256_S48x96 _ _ (ix2 p j)).trans ?_
    refine Finset.sum_congr rfl fun k _ => ?_
    have e : reduces_S48x96x256_S48x96.lift (ix2 p j) k = ix3 p j k := funext fun a => Fin.ext (by
      match a with
      | ⟨0, _⟩ => rfl
      | ⟨1, _⟩ => rfl
      | ⟨2, _⟩ => rfl)
    rw [e]
    refine (mulf_apply _ _ _).trans ?_
    refine congrArg₂ (· * ·) rfl ?_
    refine (spread_lead_two _ _ p j k).trans ?_
    exact shapeCast_ab_1ab_apply v33 _ (0 : Fin 1) (0 : Fin 1) k
  · refine (spread_all _ _ p j).trans ?_
    exact congrFun (shapeCast_self v38 _) (ix2 (0 : Fin 1) (0 : Fin 1))

end Cert.KernelIdeal.Payloads

end
-- ==== Proof.Spec.lean ====
/-
  The mathematics both programs compute, as functions of the argument arrays, index by index, on the
  extended reals.  x : [16,96,256] (a batch of 96 rows of 256 channels), f : [16,96,96,11] (pair features),
  A : [256,256], W : [11,256], c : [256], s : [256,1], d : [1].

    pair    (b,i,j,h) = x(b,i,h) + x(b,j,h)
    hidden  (b,i,j,k) = max (Σ_h pair(b,i,j,h)·A(h,k) + (Σ_{e<11} f(b,i,j,e)·W(e,k) + c(k))) 0
    score   (b,i,j)   = 1 / (1 + exp (-(Σ_k hidden(b,i,j,k)·s(k,0) + d(0))))
    context (b,i,h)   = Σ_j score(b,i,j)·x(b,j,h)

  The two results are the arrays of `context` and of `pair`.  Everything here is sums, products, a maximum and
  the logistic function of extended reals: no law used below needs an entry to be finite.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.PairScore

/-- The f32 word of 1.0 is the extended real 1. -/
theorem one_word : Ideal.ofBits .f32 0x3F800000#32 = 1 := by
  simp [Ideal.ofBits, Ideal.ieee, -EReal.coe_mul]; norm_num

/-- A sum of twelve terms whose last is `1 · c` is the sum of the first eleven, plus `c`: how a bias carried as a
    twelfth feature that is constantly one is the bias added. -/
theorem sum_with_unit_feature (g : Fin 12 → EReal) (c : EReal) (h : g (Fin.last 11) = 1 * c) :
    ∑ e : Fin 12, g e = ∑ e : Fin 11, g e.castSucc + c := by
  rw [Fin.sum_univ_castSucc, h, one_mul]

section
variable (x : (⟨3, ![16, 96, 256]⟩ : Shape).Idx → EReal) (f : (⟨4, ![16, 96, 96, 11]⟩ : Shape).Idx → EReal)
  (A : (⟨2, ![256, 256]⟩ : Shape).Idx → EReal) (W : (⟨2, ![11, 256]⟩ : Shape).Idx → EReal)
  (cb : (⟨1, ![256]⟩ : Shape).Idx → EReal) (s : (⟨2, ![256, 1]⟩ : Shape).Idx → EReal)
  (d : (⟨1, ![1]⟩ : Shape).Idx → EReal)

/-- Row `i` plus row `j` of batch `b`, channel `h`. -/
def pair (b : Fin 16) (i j : Fin 96) (h : Fin 256) : EReal := x (ix3 b i h) + x (ix3 b j h)

/-- The hidden activation of the pair (i, j): both dense layers, the bias, then the positive part. -/
def hidden (b : Fin 16) (i j : Fin 96) (k : Fin 256) : EReal :=
  max (∑ h : Fin 256, pair x b i j h * A (ix2 h k) + (∑ e : Fin 11, f (ix4 b i j e) * W (ix2 e k) + cb (ix1 k))) 0

/-- The attention logit of the pair (i, j). -/
def logit (b : Fin 16) (i j : Fin 96) : EReal :=
  ∑ k : Fin 256, hidden x f A W cb b i j k * s (ix2 k 0) + d (ix1 0)

/-- Its logistic. -/
def score (b : Fin 16) (i j : Fin 96) : EReal := Ideal.logistic (logit x f A W cb s d b i j)

/-- Row `i`'s context: the rows of the batch weighted by the scores of the pairs (i, ·). -/
def context (b : Fin 16) (i : Fin 96) (h : Fin 256) : EReal :=
  ∑ j : Fin 96, score x f A W cb s d b i j * x (ix3 b j h)

/-- The pair array, [16,96,96,256]. -/
def pairArray : (⟨4, ![16, 96, 96, 256]⟩ : Shape).Idx → EReal := fun q => pair x (q 0) (q 1) (q 2) (q 3)

/-- The context array, [16,96,256]. -/
def contextArray : (⟨3, ![16, 96, 256]⟩ : Shape).Idx → EReal := fun q => context x f A W cb s d (q 0) (q 1) (q 2)

end

/-! ## The same context from extended operands

The kernel is handed twelve features per pair — the eleven and a twelfth that is constantly one —, a [12,256]
weight whose twelfth row is the bias, the score weights as one row [1,256] and the score bias as [1,1]. -/

section
variable (x : (⟨3, ![16, 96, 256]⟩ : Shape).Idx → EReal) (g : (⟨4, ![16, 96, 96, 12]⟩ : Shape).Idx → EReal)
  (A : (⟨2, ![256, 256]⟩ : Shape).Idx → EReal) (U : (⟨2, ![12, 256]⟩ : Shape).Idx → EReal)
  (r : (⟨2, ![1, 256]⟩ : Shape).Idx → EReal) (t : (⟨2, ![1, 1]⟩ : Shape).Idx → EReal)

/-- The hidden activation from twelve features and no separate bias. -/
def hiddenExt (b : Fin 16) (i j : Fin 96) (k : Fin 256) : EReal :=
  max (∑ h : Fin 256, pair x b i j h * A (ix2 h k) + ∑ e : Fin 12, g (ix4 b i j e) * U (ix2 e k))
    (Ideal.ofBits .f32 0x00000000#32)

/-- The context from them. -/
def contextExt (b : Fin 16) (i : Fin 96) (h : Fin 256) : EReal :=
  ∑ j : Fin 96, Ideal.logistic (∑ k : Fin 256, hiddenExt x g A U b i j k * r (ix2 (0 : Fin 1) k)
                                  + t (ix2 (0 : Fin 1) (0 : Fin 1))) * x (ix3 b j h)

variable (f : (⟨4, ![16, 96, 96, 11]⟩ : Shape).Idx → EReal) (W : (⟨2, ![11, 256]⟩ : Shape).Idx → EReal)
  (cb : (⟨1, ![256]⟩ : Shape).Idx → EReal) (s : (⟨2, ![256, 1]⟩ : Shape).Idx → EReal)
  (d : (⟨1, ![1]⟩ : Shape).Idx → EReal)

/-- With the twelfth feature one and the twelfth weight row the bias, the twelve-term sum is the eleven-term sum
    plus the bias, so the extended hidden activation is the hidden activation. -/
theorem hiddenExt_eq (hg : ∀ b i j (e : Fin 11), g (ix4 b i j e.castSucc) = f (ix4 b i j e))
    (hg1 : ∀ b i j, g (ix4 b i j (Fin.last 11)) = 1)
    (hU : ∀ (e : Fin 11) k, U (ix2 e.castSucc k) = W (ix2 e k))
    (hU1 : ∀ k, U (ix2 (Fin.last 11) k) = cb (ix1 k))
    (b : Fin 16) (i j : Fin 96) (k : Fin 256) :
    hiddenExt x g A U b i j k = hidden x f A W cb b i j k := by
  unfold hiddenExt hidden
  rw [Ideal.ofBits_zero_f32,
    sum_with_unit_feature (fun e => g (ix4 b i j e) * U (ix2 e k)) (cb (ix1 k)) (by rw [hg1, hU1])]
  simp only [hg, hU]

/-- So the context from the extended operands is the context. -/
theorem contextExt_eq (hg : ∀ b i j (e : Fin 11), g (ix4 b i j e.castSucc) = f (ix4 b i j e))
    (hg1 : ∀ b i j, g (ix4 b i j (Fin.last 11)) = 1)
    (hU : ∀ (e : Fin 11) k, U (ix2 e.castSucc k) = W (ix2 e k))
    (hU1 : ∀ k, U (ix2 (Fin.last 11) k) = cb (ix1 k))
    (hr : ∀ k, r (ix2 (0 : Fin 1) k) = s (ix2 k (0 : Fin 1)))
    (ht : t (ix2 (0 : Fin 1) (0 : Fin 1)) = d (ix1 (0 : Fin 1)))
    (b : Fin 16) (i : Fin 96) (h : Fin 256) :
    contextExt x g A U r t b i h = context x f A W cb s d b i h := by
  unfold contextExt context score logit
  simp only [hiddenExt_eq x g A U f W cb hg hg1 hU hU1, hr, ht]

end

end Cert.PairScore

end
-- ==== Proof.PointValues.lean ====
/-
  What one grid point stores, entry by entry, in terms of the arrays its blocks were cut from.

  Suppose the resident block is the 96 rows of batch `b` of an array X, query row `p` of the point is row `r` of that
  batch, the feature block is the matching piece of an array G, and the remaining four blocks are whole arrays
  A, U, R, T.  Then the point stores, at `(p, q, h)` of its pair block, the pair value of rows `r` and `q`, and at
  `(p, h)` of its context block the context of row `r` computed from the extended operands.
-/
import proofs.«133173_j61744449847590_2_alg».proof.Proof.Payloads
import proofs.«133173_j61744449847590_2_alg».proof.Proof.Spec

noncomputable section

open Idealize.ShloMosaic Idealize.ShloMosaic.ValueIdx Idealize.ShloMosaic.TcCoe
open scoped BigOperators

namespace Cert.KernelIdeal.PointValues

open Cert.KernelIdeal Cert.KernelIdeal.Gen Cert.KernelIdeal.Payloads Cert.PairScore

/-- The score weights' block is stored as loaded. -/
theorem score_row (v32 : Vec Ideal S1x256 .f32) : k0_pay6 v32 = v32 := by
  unfold k0_pay6
  exact shapeCast_self v32 _

/-- The pair block's entry at `(0, p, q, h)`, when the resident block is batch `b` of X and query row `p` is row `r`
    of that batch: the pair value of rows `r` and `q`. -/
theorem pair_entry (X : S16x96x256.Idx → EReal) (x0 : Vec Ideal S1x96x256 .f32) (v5 : Vec Ideal S1x48x256 .f32)
    (b : Fin 16) (r : Fin 96) (p : Fin 48) (q : Fin 96) (h : Fin 256)
    (hx0 : ∀ (q : Fin 96) (h : Fin 256), x0 (ix3 (0 : Fin 1) q h) = X (ix3 b q h))
    (hv5 : ∀ h : Fin 256, v5 (ix3 (0 : Fin 1) p h) = X (ix3 b r h)) :
    k0_pay4 x0 v5 (ix4 (0 : Fin 1) p q h) = pair X b r q h := by
  rw [pair_block_at, hv5, hx0]
  rfl

/-- The context block's entry at `(0, p, h)`, under the same reading of the resident block and query rows, with the
    feature block the piece of G at batch `b`, query row `r`, and the other four blocks whole arrays: the context,
    from the extended operands, of row `r` of batch `b`. -/
theorem context_entry (X : S16x96x256.Idx → EReal) (G : S16x96x96x12.Idx → EReal) (A : S256x256.Idx → EReal)
    (U : S12x256.Idx → EReal) (R : S1x256.Idx → EReal) (T : S1x1.Idx → EReal)
    (x0 : Vec Ideal S1x96x256 .f32) (x1 : Vec Ideal S1x48x96x12 .f32) (x2 : Vec Ideal S256x256 .bf16)
    (x3 : Vec Ideal S12x256 .bf16) (x4 : Vec Ideal S1x256 .f32) (x5 : Vec Ideal S1x1 .f32)
    (v5 : Vec Ideal S1x48x256 .f32) (b : Fin 16) (r : Fin 96) (p : Fin 48) (h : Fin 256)
    (hx0 : ∀ (q : Fin 96) (h : Fin 256), x0 (ix3 (0 : Fin 1) q h) = X (ix3 b q h))
    (hv5 : ∀ h : Fin 256, v5 (ix3 (0 : Fin 1) p h) = X (ix3 b r h))
    (hx1 : ∀ (q : Fin 96) (e : Fin 12), x1 (ix4 (0 : Fin 1) p q e) = G (ix4 b r q e))
    (hx2 : ∀ (h k : Fin 256), x2 (ix2 h k) = A (ix2 h k))
    (hx3 : ∀ (e : Fin 12) (k : Fin 256), x3 (ix2 e k) = U (ix2 e k))
    (hx4 : ∀ k : Fin 256, x4 (ix2 (0 : Fin 1) k) = R (ix2 (0 : Fin 1) k))
    (hx5 : x5 (ix2 (0 : Fin 1) (0 : Fin 1)) = T (ix2 (0 : Fin 1) (0 : Fin 1))) :
    k0_pay1 (k0_pay2 x0) (k0_pay5 x0 v5 x2 x1 x3) (k0_pay6 x4) x5 (ix3 (0 : Fin 1) p h)
      = contextExt X G A U R T b r h := by
  rw [context_at]
  unfold contextExt hiddenExt pair
  simp only [hidden_at, resident_at, score_row, hx0, hv5, hx1, hx2, hx3, hx4, hx5]

end Cert.KernelIdeal.PointValues

end
-- ==== Proof.EntryArrays.lean ====
/-
  What the kernel's operands hold when the kernel is entered.

  Before the kernel runs, the host appends to each pair's 11 features a twelfth that is constantly one, stacks the
  bias as a twelfth row under the [11,256] weight, casts both weights to a narrower float format (the identity on
  the extended reals) and views the score weights [256,1] as one row [1,256] and the score bias [1] as [1,1].
-/
import proofs.«133173_j61744449847590_2_alg».proof.Proof.Gen.KernelIdeal.Frame.Runs
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx Idealize.ShloMosaic.TcCoe Idealize.SL.Sem
open scoped BigOperators

namespace Cert.KernelIdeal.Entry

open Cert.KernelIdeal Cert.KernelIdeal.Gen

variable (m : (ℓ : Loc nD τ sig) → Buf (Elt Ideal) ℓ)

/-- The extended feature array: the features, then the constant one. -/
theorem features_entry (c : Dev nD) :
    (V m c main_v1 : S16x96x96x12.Idx → EReal)
      = concatenate S16x96x96x12 3 [⟨S16x96x96x11, m ((c : Thread nD τ).loc main_arg1)⟩,
          ⟨S16x96x96x1, broadcastInDim S16x96x96x1 ![] bcast_S_S16x96x96x1 (constant (F := Ideal) S_ .f32 0x3F800000#32)⟩]
          concatenates_S16x96x96x11_S16x96x96x1_S16x96x96x12_d3 := by
  dsimp only [V, hostOps0]; after_results <;> rfl

/-- The extended weight: the [11,256] weight, then the bias as a twelfth row (the narrowing cast is the identity). -/
theorem weight_entry (c : Dev nD) :
    (V m c main_v5 : S12x256.Idx → EReal)
      = concatenate S12x256 0 [⟨S11x256, m ((c : Thread nD τ).loc main_arg3)⟩,
          ⟨S1x256, broadcastInDim S1x256 ![1] bcast_S256_S1x256_1 (m ((c : Thread nD τ).loc main_arg4))⟩]
          concatenates_S11x256_S1x256_S12x256_d0 := by
  dsimp only [V, hostOps0]; after_results <;> rfl

/-- The square weight, cast (the identity). -/
theorem square_entry (c : Dev nD) :
    (V m c main_v4 : S256x256.Idx → EReal) = m ((c : Thread nD τ).loc main_arg2) := by
  dsimp only [V, hostOps0]; after_results <;> rfl

/-- The score weights as one row. -/
theorem score_weights_entry (c : Dev nD) :
    (V m c main_v6 : S1x256.Idx → EReal)
      = shapeCast S1x256 (m ((c : Thread nD τ).loc main_arg5)) shapeCasts_S256x1_S1x256 := by
  dsimp only [V, hostOps0]; after_results <;> rfl

/-- The score bias as a [1,1] array. -/
theorem score_bias_entry (c : Dev nD) :
    (V m c main_v7 : S1x1.Idx → EReal)
      = shapeCast S1x1 (m ((c : Thread nD τ).loc main_arg6)) shapeCasts_S1_S1x1 := by
  dsimp only [V, hostOps0]; after_results <;> rfl

/-! ## Read at an index -/

/-- The first eleven extended features are the features. -/
theorem features_at (c : Dev nD) (b : Fin 16) (i j : Fin 96) (e : Fin 11) :
    (V m c main_v1 : S16x96x96x12.Idx → EReal) (ix4 b i j e.castSucc)
      = m ((c : Thread nD τ).loc main_arg1) (ix4 b i j e) := by
  rw [features_entry]
  exact concatenate_pair_apply_left (t := S16x96x96x12) (s₁ := S16x96x96x11) (s₂ := S16x96x96x1) (3 : Fin 4) _ _ _
    (ix4 b i j e.castSucc) rfl (ix4 b i j e : S16x96x96x11.Idx) (fun a => by
    match a with
    | ⟨0, _⟩ => rfl
    | ⟨1, _⟩ => rfl
    | ⟨2, _⟩ => rfl
    | ⟨3, _⟩ => rfl)

/-- The twelfth extended feature is the word of 1.0. -/
theorem ones_at (c : Dev nD) (b : Fin 16) (i j : Fin 96) :
    (V m c main_v1 : S16x96x96x12.Idx → EReal) (ix4 b i j (Fin.last 11)) = Ideal.ofBits .f32 0x3F800000#32 := by
  rw [features_entry]
  exact concatenate_pair_apply_right (t := S16x96x96x12) (s₁ := S16x96x96x11) (s₂ := S16x96x96x1) (3 : Fin 4) _ _ _
    (ix4 b i j (Fin.last 11)) rfl rfl (ix4 b i j (0 : Fin 1) : S16x96x96x1.Idx)
    (fun a ha => by
      match a with
      | ⟨0, _⟩ => rfl
      | ⟨1, _⟩ => rfl
      | ⟨2, _⟩ => rfl
      | ⟨3, _⟩ => exact absurd rfl ha) rfl

/-- The first eleven rows of the extended weight are the weight. -/
theorem weight_at (c : Dev nD) (e : Fin 11) (k : Fin 256) :
    (V m c main_v5 : S12x256.Idx → EReal) (ix2 e.castSucc k) = m ((c : Thread nD τ).loc main_arg3) (ix2 e k) := by
  rw [weight_entry]
  exact concatenate_pair_apply_left (t := S12x256) (s₁ := S11x256) (s₂ := S1x256) (0 : Fin 2) _ _ _
    (ix2 e.castSucc k) rfl (ix2 e k : S11x256.Idx) (fun a => by
    match a with
    | ⟨0, _⟩ => rfl
    | ⟨1, _⟩ => rfl)

/-- Its twelfth row is the bias. -/
theorem bias_row_at (c : Dev nD) (k : Fin 256) :
    (V m c main_v5 : S12x256.Idx → EReal) (ix2 (Fin.last 11) k) = m ((c : Thread nD τ).loc main_arg4) (ix1 k) := by
  rw [weight_entry]
  refine (concatenate_pair_apply_right (t := S12x256) (s₁ := S11x256) (s₂ := S1x256) (0 : Fin 2) _ _ _
    (ix2 (Fin.last 11) k) rfl rfl (ix2 (0 : Fin 1) k : S1x256.Idx)
    (fun a ha => by
      match a with
      | ⟨0, _⟩ => exact absurd rfl ha
      | ⟨1, _⟩ => rfl) rfl).trans ?_
  exact broadcastInDim_apply _ _ _ (ix2 (0 : Fin 1) k) (ix1 k) (fun a => by
    match a with
    | ⟨0, _⟩ => rfl)

/-- The score weights' row at `k` is the score weight `k`. -/
theorem score_weight_at (c : Dev nD) (k : Fin 256) :
    (V m c main_v6 : S1x256.Idx → EReal) (ix2 (0 : Fin 1) k) = m ((c : Thread nD τ).loc main_arg5) (ix2 k (0 : Fin 1)) := by
  rw [score_weights_entry]
  exact shapeCast_apply _ _ (ix2 (0 : Fin 1) k) (ix2 k (0 : Fin 1)) (by
    rw [Shape.rowMajor_val_two, Shape.rowMajor_val_two]
    show k.val * 1 + 0 = 0 * 256 + k.val
    omega)

/-- The [1,1] score bias is the score bias. -/
theorem score_bias_at (c : Dev nD) :
    (V m c main_v7 : S1x1.Idx → EReal) (ix2 (0 : Fin 1) (0 : Fin 1)) = m ((c : Thread nD τ).loc main_arg6) (ix1 (0 : Fin 1)) := by
  rw [score_bias_entry]
  exact shapeCast_a_1a_apply _ _ (0 : Fin 1) (0 : Fin 1)

end Cert.KernelIdeal.Entry

end
-- ==== Proof.Blocks.lean ====
/-
  From what each grid point stores to the two result arrays.

  Grid point (b, it) — batch b of 16, query tile it of 2 — is handed the resident block of batch b, the feature
  block of batch b and query rows 48·it … 48·it + 47, and the four whole weight arrays; it writes back block (b, it)
  of the pair array and block (b, it) of the context array.  Every index of either result lies in exactly the block of
  the point (b, row / 48), so each result array is the specification's array.
-/
import proofs.«133173_j61744449847590_2_alg».proof.Proof.Gen.KernelIdeal.Value
import proofs.«133173_j61744449847590_2_alg».proof.Proof.Pieces
import proofs.«133173_j61744449847590_2_alg».proof.Proof.PointValues
import proofs.«133173_j61744449847590_2_alg».proof.Proof.EntryArrays

noncomputable section

open Idealize.ShloMosaic Idealize.ShloMosaic.ValueIdx Idealize.ShloMosaic.TcCoe Idealize.SL.Sem
open Idealize.ShloMosaic.Pipeline (Dat)
open scoped BigOperators

namespace Cert.KernelIdeal.Blocks

open Cert.KernelIdeal Cert.KernelIdeal.Gen Cert.PairScore

variable (m : (ℓ : Loc nD τ sig) → Buf (Elt Ideal) ℓ) (ρ : Dev nD → PrngReg)

/-- The block index maps, decided over the 32 grid points: the resident block is indexed by the batch alone; the
    feature block, the pair block and the context block by (batch, tile); the weights by nothing; the query rows start
    at row 48·tile of the resident block. -/
theorem index_facts : ∀ t : Fin cfg0.N,
    win0_0.index t (0 : Fin 3) = win0_6.index t (0 : Fin 4) ∧ win0_0.index t (1 : Fin 3) = 0 ∧ win0_0.index t (2 : Fin 3) = 0
    ∧ k0_off1 (grid0.coords t) (0 : Fin 3) = 0 ∧ k0_off1 (grid0.coords t) (1 : Fin 3) = win0_6.index t (1 : Fin 4) * 48
    ∧ k0_off1 (grid0.coords t) (2 : Fin 3) = 0
    ∧ win0_6.index t (2 : Fin 4) = 0 ∧ win0_6.index t (3 : Fin 4) = 0
    ∧ win0_6.index t (0 : Fin 4) < 16 ∧ win0_6.index t (1 : Fin 4) < 2 :=
  (by decide +kernel : ∀ t : Fin grid0.N, _)

/-- Every (batch, tile) is some point's. -/
theorem index_onto6 : ∀ (b : Fin 16) (it : Fin 2), ∃ t : Fin cfg0.N, win0_6.index t = ![b.val, it.val, 0, 0] :=
  (by decide +kernel : ∀ (b : Fin 16) (it : Fin 2), ∃ t : Fin grid0.N, win0_6.index t = ![b.val, it.val, 0, 0])

/-! ## The pair array -/

/-- What point `t` writes back to the pair array is block `t` of the pair array of the inputs. -/
theorem flushed6_eq (c : Dev nD) (t : Fin cfg0.N) :
    (dats m 0 c).flushed 6 t
      = ((cfg0.win 6).blk t).view.read (Elt Ideal) (pairArray (V m c main_arg0)) := by
  rw [Value.flushed6_A, Pieces.pair_block]
  obtain ⟨f00, f01, f02, o0, o1, o2, s2, s3, hb, hit⟩ := index_facts t
  funext y
  obtain ⟨p, q, h, rfl⟩ : ∃ (p : Fin 48) (q : Fin 96) (h : Fin 256), y = ix4 (0 : Fin 1) p q h :=
    ⟨y 1, y 2, y 3, funext fun a => by
      match a with
      | ⟨0, _⟩ => exact Fin.ext (Nat.lt_one_iff.mp (y 0).isLt)
      | ⟨1, _⟩ => rfl
      | ⟨2, _⟩ => rfl
      | ⟨3, _⟩ => rfl⟩
  have hr : win0_6.index t (1 : Fin 4) * 48 + p.val < 96 := by have := p.isLt; omega
  have hi : ((cfg0.win 6).blk t).view.emb (ix4 (0 : Fin 1) p q h)
      = ix4 (⟨win0_6.index t (0 : Fin 4), hb⟩ : Fin 16) (⟨win0_6.index t (1 : Fin 4) * 48 + p.val, hr⟩ : Fin 96) q h :=
    funext fun a => Fin.ext (by
      match a with
      | ⟨0, _⟩ => show win0_6.index t (0 : Fin 4) * 1 + 1 * 0 = win0_6.index t (0 : Fin 4); omega
      | ⟨1, _⟩ => show win0_6.index t (1 : Fin 4) * 48 + 1 * p.val = win0_6.index t (1 : Fin 4) * 48 + p.val; omega
      | ⟨2, _⟩ => show win0_6.index t (2 : Fin 4) * 96 + 1 * q.val = q.val; omega
      | ⟨3, _⟩ => show win0_6.index t (3 : Fin 4) * 256 + 1 * h.val = h.val; omega)
  show k0_pay4 (iblk m c 0 t) (Pieces.queryRows (grid0.coords t) (iblk m c 0 t)) (ix4 (0 : Fin 1) p q h)
      = pairArray (V m c main_arg0) (((cfg0.win 6).blk t).view.emb (ix4 (0 : Fin 1) p q h))
  refine (PointValues.pair_entry (V m c main_arg0) _ _ ⟨win0_6.index t (0 : Fin 4), hb⟩
    ⟨win0_6.index t (1 : Fin 4) * 48 + p.val, hr⟩ p q h ?_ ?_).trans (congrArg (pairArray (V m c main_arg0)) hi).symm
  · intro q' h'
    show V m c main_arg0 (((cfg0.win 0).blk t).view.emb (ix3 (0 : Fin 1) q' h')) = _
    refine congrArg _ (funext fun a => Fin.ext ?_)
    match a with
    | ⟨0, _⟩ => show win0_0.index t (0 : Fin 3) * 1 + 1 * 0 = win0_6.index t (0 : Fin 4); omega
    | ⟨1, _⟩ => show win0_0.index t (1 : Fin 3) * 96 + 1 * q'.val = q'.val; omega
    | ⟨2, _⟩ => show win0_0.index t (2 : Fin 3) * 256 + 1 * h'.val = h'.val; omega
  · intro h'
    show V m c main_arg0 (((cfg0.win 0).blk t).view.emb
        ((Rect.unit (s := S1x96x256) (k0_off1 (grid0.coords t)) S1x48x256.size (k0_off1_inb (grid0.coords t))).idx (ix3 (0 : Fin 1) p h'))) = _
    refine congrArg _ (funext fun a => Fin.ext ?_)
    match a with
    | ⟨0, _⟩ => show win0_0.index t (0 : Fin 3) * 1 + 1 * (k0_off1 (grid0.coords t) (0 : Fin 3) + 1 * 0) = win0_6.index t (0 : Fin 4); omega
    | ⟨1, _⟩ => show win0_0.index t (1 : Fin 3) * 96 + 1 * (k0_off1 (grid0.coords t) (1 : Fin 3) + 1 * p.val) = win0_6.index t (1 : Fin 4) * 48 + p.val; omega
    | ⟨2, _⟩ => show win0_0.index t (2 : Fin 3) * 256 + 1 * (k0_off1 (grid0.coords t) (2 : Fin 3) + 1 * h'.val) = h'.val; omega

/-- An index of the pair array is in point `t`'s block iff each coordinate is in the block's range on its axis. -/
theorem mem_blk6 (t : Fin cfg0.N) (i : S16x96x96x256.Idx) :
    i ∈ ((cfg0.win 6).blk t).view.set ↔ ∀ a : Fin 4, win0_6.index t a * S1x48x96x256.size a ≤ (i a).val
      ∧ (i a).val < win0_6.index t a * S1x48x96x256.size a + S1x48x96x256.size a := by
  show i ∈ ((View.whole main_v8_0).slice (win0_6.rect t)).set ↔ _
  rw [View.set_slice_whole, Rect.mem_set_unit]
  exact Iff.rfl

/-- Every index of the pair array is in the block of the point (its batch, its row / 48). -/
theorem cover6 (i : S16x96x96x256.Idx) : ∃ t : Fin cfg0.N, (cfg0.win 6).flush t = true ∧ i ∈ ((cfg0.win 6).blk t).view.set := by
  have h0 : (i 0).val < 16 := (i 0).isLt
  have h1 : (i 1).val < 96 := (i 1).isLt
  have h2 : (i 2).val < 96 := (i 2).isLt
  have h3 : (i 3).val < 256 := (i 3).isLt
  obtain ⟨t, ht⟩ := index_onto6 ⟨(i 0).val, h0⟩ ⟨(i 1).val / 48, by omega⟩
  have q0 : win0_6.index t (0 : Fin 4) = (i 0).val := congrFun ht 0
  have q1 : win0_6.index t (1 : Fin 4) = (i 1).val / 48 := congrFun ht 1
  have q2 : win0_6.index t (2 : Fin 4) = 0 := congrFun ht 2
  have q3 : win0_6.index t (3 : Fin 4) = 0 := congrFun ht 3
  refine ⟨t, flush0_6 t, (mem_blk6 t i).mpr fun a => ?_⟩
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 48 ≤ (i 1).val ∧ (i 1).val < win0_6.index t (1 : Fin 4) * 48 + 48; omega
  | ⟨2, _⟩ => show win0_6.index t (2 : Fin 4) * 96 ≤ (i 2).val ∧ (i 2).val < win0_6.index t (2 : Fin 4) * 96 + 96; omega
  | ⟨3, _⟩ => show win0_6.index t (3 : Fin 4) * 256 ≤ (i 3).val ∧ (i 3).val < win0_6.index t (3 : Fin 4) * 256 + 256; omega

/-- The pair array after the run is the pair array of the inputs. -/
theorem final6 (c : Dev nD) :
    (dats m 0 c).arrAt 6 cfg0.N = pairArray (m ((c : Thread nD τ).loc main_arg0)) := by
  rw [← V_main_arg0 m c]
  exact (dats m 0 c).arrAt_eq_of_cover 6 (pairArray (V m c main_arg0)) (fun t _ => flushed6_eq m c t) cover6

/-! ## The context array -/

/-- The remaining block index maps, decided over the 32 grid points. -/
theorem index_facts7 : ∀ t : Fin cfg0.N,
    win0_1.index t (0 : Fin 4) = win0_6.index t (0 : Fin 4) ∧ win0_1.index t (1 : Fin 4) = win0_6.index t (1 : Fin 4)
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 3) = win0_6.index t (0 : Fin 4) ∧ win0_7.index t (1 : Fin 3) = win0_6.index t (1 : Fin 4)
    ∧ win0_7.index t (2 : Fin 3) = 0 :=
  (by decide +kernel : ∀ t : Fin grid0.N, _)

theorem index_onto7 : ∀ (b : Fin 16) (it : Fin 2), ∃ t : Fin cfg0.N, win0_7.index t = ![b.val, it.val, 0] :=
  (by decide +kernel : ∀ (b : Fin 16) (it : Fin 2), ∃ t : Fin grid0.N, win0_7.index t = ![b.val, it.val, 0])

/-- The context array computed from the operands as the kernel is handed them. -/
abbrev contextAtEntry (c : Dev nD) : S16x96x256.Idx → EReal := fun i =>
  contextExt (V m c main_arg0) (V m c main_v1 : S16x96x96x12.Idx → EReal) (V m c main_v4 : S256x256.Idx → EReal)
    (V m c main_v5 : S12x256.Idx → EReal) (V m c main_v6 : S1x256.Idx → EReal) (V m c main_v7 : S1x1.Idx → EReal)
    (i 0) (i 1) (i 2)

/-- What point `t` writes back to the context array is block `t` of that array. -/
theorem flushed7_eq (c : Dev nD) (t : Fin cfg0.N) :
    (dats m 0 c).flushed 7 t = ((cfg0.win 7).blk t).view.read (Elt Ideal) (contextAtEntry m c) := by
  rw [Value.flushed7_A, Pieces.context_block]
  obtain ⟨f00, f01, f02, o0, o1, o2, s2, s3, hb, hit⟩ := index_facts t
  obtain ⟨g0, g1, g2, g3, a0, a1, u0, u1, r0, r1, d0, d1, c0, c1, c2⟩ := index_facts7 t
  funext y
  obtain ⟨p, h, rfl⟩ : ∃ (p : Fin 48) (h : Fin 256), y = ix3 (0 : Fin 1) p h :=
    ⟨y 1, y 2, funext fun a => by
      match a with
      | ⟨0, _⟩ => exact Fin.ext (Nat.lt_one_iff.mp (y 0).isLt)
      | ⟨1, _⟩ => rfl
      | ⟨2, _⟩ => rfl⟩
  have hr : win0_6.index t (1 : Fin 4) * 48 + p.val < 96 := by have := p.isLt; omega
  have hi : ((cfg0.win 7).blk t).view.emb (ix3 (0 : Fin 1) p h)
      = ix3 (⟨win0_6.index t (0 : Fin 4), hb⟩ : Fin 16) (⟨win0_6.index t (1 : Fin 4) * 48 + p.val, hr⟩ : Fin 96) h :=
    funext fun a => Fin.ext (by
      match a with
      | ⟨0, _⟩ => show win0_7.index t (0 : Fin 3) * 1 + 1 * 0 = win0_6.index t (0 : Fin 4); omega
      | ⟨1, _⟩ => show win0_7.index t (1 : Fin 3) * 48 + 1 * p.val = win0_6.index t (1 : Fin 4) * 48 + p.val; omega
      | ⟨2, _⟩ => show win0_7.index t (2 : Fin 3) * 256 + 1 * h.val = h.val; omega)
  show k0_pay1 (k0_pay2 (iblk m c 0 t))
        (k0_pay5 (iblk m c 0 t) (Pieces.queryRows (grid0.coords t) (iblk m c 0 t)) (iblk m c 2 t) (iblk m c 1 t) (iblk m c 3 t))
        (k0_pay6 (iblk m c 4 t)) (iblk m c 5 t) (ix3 (0 : Fin 1) p h)
      = contextAtEntry m c (((cfg0.win 7).blk t).view.emb (ix3 (0 : Fin 1) p h))
  refine (PointValues.context_entry (V m c main_arg0) (V m c main_v1 : S16x96x96x12.Idx → EReal)
    (V m c main_v4 : S256x256.Idx → EReal) (V m c main_v5 : S12x256.Idx → EReal) (V m c main_v6 : S1x256.Idx → EReal)
    (V m c main_v7 : S1x1.Idx → EReal) _ _ _ _ _ _ _ ⟨win0_6.index t (0 : Fin 4), hb⟩
    ⟨win0_6.index t (1 : Fin 4) * 48 + p.val, hr⟩ p h ?_ ?_ ?_ ?_ ?_ ?_ ?_).trans (congrArg (contextAtEntry m c) hi).symm
  · intro q' h'
    show V m c main_arg0 (((cfg0.win 0).blk t).view.emb (ix3 (0 : Fin 1) q' h')) = _
    refine congrArg _ (funext fun a => Fin.ext ?_)
    match a with
    | ⟨0, _⟩ => show win0_0.index t (0 : Fin 3) * 1 + 1 * 0 = win0_6.index t (0 : Fin 4); omega
    | ⟨1, _⟩ => show win0_0.index t (1 : Fin 3) * 96 + 1 * q'.val = q'.val; omega
    | ⟨2, _⟩ => show win0_0.index t (2 : Fin 3) * 256 + 1 * h'.val = h'.val; omega
  · intro h'
    show V m c main_arg0 (((cfg0.win 0).blk t).view.emb
        ((Rect.unit (s := S1x96x256) (k0_off1 (grid0.coords t)) S1x48x256.size (k0_off1_inb (grid0.coords t))).idx (ix3 (0 : Fin 1) p h'))) = _
    refine congrArg _ (funext fun a => Fin.ext ?_)
    match a with
    | ⟨0, _⟩ => show win0_0.index t (0 : Fin 3) * 1 + 1 * (k0_off1 (grid0.coords t) (0 : Fin 3) + 1 * 0) = win0_6.index t (0 : Fin 4); omega
    | ⟨1, _⟩ => show win0_0.index t (1 : Fin 3) * 96 + 1 * (k0_off1 (grid0.coords t) (1 : Fin 3) + 1 * p.val) = win0_6.index t (1 : Fin 4) * 48 + p.val; omega
    | ⟨2, _⟩ => show win0_0.index t (2 : Fin 3) * 256 + 1 * (k0_off1 (grid0.coords t) (2 : Fin 3) + 1 * h'.val) = h'.val; omega
  · intro q' e
    show V m c main_v1 (((cfg0.win 1).blk t).view.emb (ix4 (0 : Fin 1) p q' e)) = _
    refine congrArg _ (funext fun a => Fin.ext ?_)
    match a with
    | ⟨0, _⟩ => show win0_1.index t (0 : Fin 4) * 1 + 1 * 0 = win0_6.index t (0 : Fin 4); omega
    | ⟨1, _⟩ => show win0_1.index t (1 : Fin 4) * 48 + 1 * p.val = win0_6.index t (1 : Fin 4) * 48 + p.val; omega
    | ⟨2, _⟩ => show win0_1.index t (2 : Fin 4) * 96 + 1 * q'.val = q'.val; omega
    | ⟨3, _⟩ => show win0_1.index t (3 : Fin 4) * 12 + 1 * e.val = e.val; omega
  · intro h' k
    show V m c main_v4 (((cfg0.win 2).blk t).view.emb (ix2 h' k)) = _
    refine congrArg _ (funext fun a => Fin.ext ?_)
    match a with
    | ⟨0, _⟩ => show win0_2.index t (0 : Fin 2) * 256 + 1 * h'.val = h'.val; omega
    | ⟨1, _⟩ => show win0_2.index t (1 : Fin 2) * 256 + 1 * k.val = k.val; omega
  · intro e k
    show V m c main_v5 (((cfg0.win 3).blk t).view.emb (ix2 e k)) = _
    refine congrArg _ (funext fun a => Fin.ext ?_)
    match a with
    | ⟨0, _⟩ => show win0_3.index t (0 : Fin 2) * 12 + 1 * e.val = e.val; omega
    | ⟨1, _⟩ => show win0_3.index t (1 : Fin 2) * 256 + 1 * k.val = k.val; omega
  · intro k
    show V m c main_v6 (((cfg0.win 4).blk t).view.emb (ix2 (0 : Fin 1) k)) = _
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * k.val = k.val; omega
  · show V m c main_v7 (((cfg0.win 5).blk t).view.emb (ix2 (0 : Fin 1) (0 : Fin 1))) = _
    refine congrArg _ (funext fun a => Fin.ext ?_)
    match a with
    | ⟨0, _⟩ => show win0_5.index t (0 : Fin 2) * 1 + 1 * 0 = 0; omega
    | ⟨1, _⟩ => show win0_5.index t (1 : Fin 2) * 1 + 1 * 0 = 0; omega

/-- An index of the context array is in point `t`'s block iff each coordinate is in the block's range on its axis. -/
theorem mem_blk7 (t : Fin cfg0.N) (i : S16x96x256.Idx) :
    i ∈ ((cfg0.win 7).blk t).view.set ↔ ∀ a : Fin 3, win0_7.index t a * S1x48x256.size a ≤ (i a).val
      ∧ (i a).val < win0_7.index t a * S1x48x256.size a + S1x48x256.size a := by
  show i ∈ ((View.whole main_v8_1).slice (win0_7.rect t)).set ↔ _
  rw [View.set_slice_whole, Rect.mem_set_unit]
  exact Iff.rfl

/-- Every index of the context array is in the block of the point (its batch, its row / 48). -/
theorem cover7 (i : S16x96x256.Idx) : ∃ t : Fin cfg0.N, (cfg0.win 7).flush t = true ∧ i ∈ ((cfg0.win 7).blk t).view.set := by
  have h0 : (i 0).val < 16 := (i 0).isLt
  have h1 : (i 1).val < 96 := (i 1).isLt
  have h2 : (i 2).val < 256 := (i 2).isLt
  obtain ⟨t, ht⟩ := index_onto7 ⟨(i 0).val, h0⟩ ⟨(i 1).val / 48, by omega⟩
  have q0 : win0_7.index t (0 : Fin 3) = (i 0).val := congrFun ht 0
  have q1 : win0_7.index t (1 : Fin 3) = (i 1).val / 48 := congrFun ht 1
  have q2 : win0_7.index t (2 : Fin 3) = 0 := congrFun ht 2
  refine ⟨t, flush0_7 t, (mem_blk7 t i).mpr fun a => ?_⟩
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 48 ≤ (i 1).val ∧ (i 1).val < win0_7.index t (1 : Fin 3) * 48 + 48; omega
  | ⟨2, _⟩ => show win0_7.index t (2 : Fin 3) * 256 ≤ (i 2).val ∧ (i 2).val < win0_7.index t (2 : Fin 3) * 256 + 256; omega

/-- With the operands as the host prepared them — a twelfth feature that is one, the bias as the twelfth weight row,
    the score parameters re-laid — the context from the extended operands is the context of the inputs. -/
theorem contextAtEntry_eq (c : Dev nD) :
    contextAtEntry m c = contextArray (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  funext i
  show contextExt _ _ _ _ _ _ (i 0) (i 1) (i 2) = context _ _ _ _ _ _ _ (i 0) (i 1) (i 2)
  rw [Entry.square_entry m c, V_main_arg0 m c]
  exact contextExt_eq _ _ _ _ _ _ _ _ _ _ _
    (fun b i' j e => Entry.features_at m c b i' j e)
    (fun b i' j => (Entry.ones_at m c b i' j).trans one_word)
    (fun e k => Entry.weight_at m c e k) (fun k => Entry.bias_row_at m c k)
    (fun k => Entry.score_weight_at m c k) (Entry.score_bias_at m c) (i 0) (i 1) (i 2)

/-- The context array after the run is the context array of the inputs. -/
theorem final7 (c : Dev nD) :
    (dats m 0 c).arrAt 7 cfg0.N = contextArray (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) :=
  ((dats m 0 c).arrAt_eq_of_cover 7 (contextAtEntry m c) (fun t _ => flushed7_eq m c t) cover7).trans
    (contextAtEntry_eq m c)

/-! ## The run, read -/

/-- Every weakly fair execution of the kernel's program terminates with the context result at the context array of
    the inputs, the pair result at their pair array, and the inputs unchanged. -/
theorem run : θ_run defs (onTc (τ := τ) (main (F := Ideal))) ⟨m, fun _ => 0, ρ⟩ fun r => ∀ c : Dev nD,
      r.2.mem ((c : Thread nD τ).loc main_v8_1) = contextArray (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
      ∧ r.2.mem ((c : Thread nD τ).loc main_v8_0) = pairArray (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
      ⟨(h c).2.1.trans (final7 m c), (h c).1.trans (final6 m c), (h c).2.2⟩)
    (Value.run_blocks m ρ)

end Cert.KernelIdeal.Blocks

end
-- ==== Proof.RefIsSpec.lean ====
/-
  The reference program computes the specification.

  Its stages, read at an index one operation at a time, are the specification's functions: the pair sum with its
  two terms in the other order (commutativity), the bias added after the two products' sum rather than to the second
  product (associativity), the logistic spelt `1 / (1 + exp (-t))` with both ones the f32 word of 1.0, and a sum over
  an axis of extent one started from the f32 word of 0.0.
-/
import proofs.«133173_j61744449847590_2_alg».proof.Proof.Gen.ReferenceIdeal.Read
import proofs.«133173_j61744449847590_2_alg».proof.Proof.Spec

noncomputable section

open Idealize.ShloMosaic Idealize.ShloMosaic.ValueIdx Idealize.ShloMosaic.TcCoe
open scoped BigOperators

namespace Cert.ReferenceIdeal.RefValue

open Cert.ReferenceIdeal Cert.ReferenceIdeal.Read Cert.PairScore

variable (x0 : (⟨S16x96x256, .f32⟩ : BufTy).Contents (Elt Ideal)) (x1 : (⟨S16x96x96x11, .f32⟩ : BufTy).Contents (Elt Ideal))
  (x2 : (⟨S256x256, .f32⟩ : BufTy).Contents (Elt Ideal)) (x3 : (⟨S11x256, .f32⟩ : BufTy).Contents (Elt Ideal))
  (x4 : (⟨S256, .f32⟩ : BufTy).Contents (Elt Ideal)) (x5 : (⟨S256x1, .f32⟩ : BufTy).Contents (Elt Ideal))
  (x6 : (⟨S1, .f32⟩ : BufTy).Contents (Elt Ideal))

/-- The pair stage at `(b, i, j, h)`: row `j` plus row `i`, which is the pair value. -/
theorem pair_stage (b : Fin 16) (i j : Fin 96) (h : Fin 256) :
    val_main_v4 (F := Ideal) x0 (ix4 b i j h) = pair x0 b i j h := by
  have e1 : idx_main_v0 (idx_main_v2 (ix4 b i j h)) = ix3 b j h := funext fun a => Fin.ext (by
    match a with
    | ⟨0, _⟩ => rfl
    | ⟨1, _⟩ => rfl
    | ⟨2, _⟩ => rfl)
  have e2 : idx_main_v1 (idx_main_v3 (ix4 b i j h)) = ix3 b i h := funext fun a => Fin.ext (by
    match a with
    | ⟨0, _⟩ => rfl
    | ⟨1, _⟩ => rfl
    | ⟨2, _⟩ => rfl)
  rw [val_main_v4_apply, val_main_v2_apply, val_main_v0_apply, val_main_v3_apply, val_main_v1_apply, e1, e2]
  exact add_comm _ _

/-- So the pair result is the pair array. -/
theorem pair_result : val_main_v4 (F := Ideal) x0 = pairArray x0 := by
  funext q
  rw [eq_ix4 q]
  exact pair_stage x0 (q 0) (q 1) (q 2) (q 3)

/-- The hidden stage at `(b, i, j, k)`. -/
theorem hidden_stage (b : Fin 16) (i j : Fin 96) (k : Fin 256) :
    val_main_v11 (F := Ideal) x0 x1 x2 x3 x4 (ix4 b i j k) = hidden x0 x1 x2 x3 x4 b i j k := by
  have l5 : ∀ h : Fin 256, lidx_main_v5 (ix4 b i j k) h = ix4 b i j h := fun h => funext fun a => Fin.ext (by
    match a with
    | ⟨0, _⟩ => rfl
    | ⟨1, _⟩ => rfl
    | ⟨2, _⟩ => rfl
    | ⟨3, _⟩ => rfl)
  have r5 : ∀ h : Fin 256, ridx_main_v5 (ix4 b i j k) h = ix2 h k := fun h => funext fun a => Fin.ext (by
    match a with
    | ⟨0, _⟩ => rfl
    | ⟨1, _⟩ => rfl)
  have l6 : ∀ e : Fin 11, lidx_main_v6 (ix4 b i j k) e = ix4 b i j e := fun e => funext fun a => Fin.ext (by
    match a with
    | ⟨0, _⟩ => rfl
    | ⟨1, _⟩ => rfl
    | ⟨2, _⟩ => rfl
    | ⟨3, _⟩ => rfl)
  have r6 : ∀ e : Fin 11, ridx_main_v6 (ix4 b i j k) e = ix2 e k := fun e => funext fun a => Fin.ext (by
    match a with
    | ⟨0, _⟩ => rfl
    | ⟨1, _⟩ => rfl)
  have e9 : idx_main_v8 (idx_main_v9 (ix4 b i j k)) = ix1 k := funext fun a => Fin.ext (by
    match a with
    | ⟨0, _⟩ => rfl)
  rw [val_main_v11_apply, val_main_v10_apply, val_main_v7_apply, val_main_v5_apply, val_main_v6_apply,
    val_main_v9_apply, val_main_v8_apply, val_main_call0_v0_apply, val_main_call0_cst_apply, e9]
  simp only [l5, r5, l6, r6, pair_stage]
  show max ((_ + _) + _) (Ideal.ofBits .f32 0x00000000#32) = _
  rw [Ideal.ofBits_zero_f32, add_assoc]
  rfl

/-- The score stage at `(b, i, j)`: a sum over an axis of extent one, started from zero, of
    `1 / (1 + exp (-logit))` — the logistic of the logit. -/
theorem score_stage (b : Fin 16) (i j : Fin 96) :
    val_main_v22 (F := Ideal) x0 x1 x2 x3 x4 x5 x6 (ix3 b i j) = score x0 x1 x2 x3 x4 x5 x6 b i j := by
  have e22 : idx_main_v22 (ix3 b i j) (0 : Fin 1) = ix4 b i j (0 : Fin 1) := funext fun a => Fin.ext (by
    match a with
    | ⟨0, _⟩ => rfl
    | ⟨1, _⟩ => rfl
    | ⟨2, _⟩ => rfl
    | ⟨3, _⟩ => rfl)
  have l12 : ∀ k : Fin 256, lidx_main_v12 (ix4 b i j (0 : Fin 1)) k = ix4 b i j k := fun k => funext fun a => Fin.ext (by
    match a with
    | ⟨0, _⟩ => rfl
    | ⟨1, _⟩ => rfl
    | ⟨2, _⟩ => rfl
    | ⟨3, _⟩ => rfl)
  have r12 : ∀ k : Fin 256, ridx_main_v12 (ix4 b i j (0 : Fin 1)) k = ix2 k (0 : Fin 1) := fun k => funext fun a => Fin.ext (by
    match a with
    | ⟨0, _⟩ => rfl
    | ⟨1, _⟩ => rfl)
  have e14 : idx_main_v13 (idx_main_v14 (ix4 b i j (0 : Fin 1))) = ix1 (0 : Fin 1) := funext fun a => Fin.ext (by
    match a with
    | ⟨0, _⟩ => rfl)
  rw [val_main_v22_apply, val_main_cst_1_apply, Fin.sum_univ_one, e22, val_main_v21_apply, val_main_v20_apply,
    val_main_cst_0_apply, val_main_v19_apply, val_main_v18_apply, val_main_cst_apply, val_main_v17_apply,
    val_main_v16_apply, val_main_v15_apply, val_main_v12_apply, val_main_v14_apply, val_main_v13_apply, e14]
  simp only [l12, r12, hidden_stage]
  show Ideal.ofBits .f32 0x00000000#32
      + Ideal.div (Ideal.ofBits .f32 0x3F800000#32) (Ideal.ofBits .f32 0x3F800000#32 + Ideal.exp (-(_ + _))) = _
  rw [Ideal.ofBits_zero_f32, zero_add, one_word]
  rfl

/-- The context stage at `(b, i, h)`: the rows of batch `b` weighted by the scores of the pairs `(i, ·)`. -/
theorem context_stage (b : Fin 16) (i : Fin 96) (h : Fin 256) :
    val_main_v23 (F := Ideal) x0 x1 x2 x3 x4 x5 x6 (ix3 b i h) = context x0 x1 x2 x3 x4 x5 x6 b i h := by
  have l : ∀ k : Fin 96, lidx_main_v23 (ix3 b i h) k = ix3 b i k := fun k => funext fun a => Fin.ext (by
    match a with
    | ⟨0, _⟩ => rfl
    | ⟨1, _⟩ => rfl
    | ⟨2, _⟩ => rfl)
  have r : ∀ k : Fin 96, ridx_main_v23 (ix3 b i h) k = ix3 b k h := fun k => funext fun a => Fin.ext (by
    match a with
    | ⟨0, _⟩ => rfl
    | ⟨1, _⟩ => rfl
    | ⟨2, _⟩ => rfl)
  rw [val_main_v23_apply]
  simp only [l, r, score_stage]
  rfl

/-- So the context result is the context array. -/
theorem context_result : val_main_v23 (F := Ideal) x0 x1 x2 x3 x4 x5 x6 = contextArray x0 x1 x2 x3 x4 x5 x6 := by
  funext q
  rw [eq_ix3 q]
  exact context_stage x0 x1 x2 x3 x4 x5 x6 (q 0) (q 1) (q 2)

end Cert.ReferenceIdeal.RefValue

end
-- ==== Proof.lean ====
/-
  The kernel and its reference compute the same two arrays.

  Inputs: x [16,96,256] (16 batches of 96 rows of 256 channels), pair features f [16,96,96,11], weights A [256,256]
  and W [11,256], a bias c [256], score weights s [256,1] and a score bias d [1].  Results:

    pair    (b,i,j,h) = x(b,i,h) + x(b,j,h)
    context (b,i,h)   = Σ_j logistic (Σ_k hidden(b,i,j,k)·s(k) + d) · x(b,j,h),
    hidden  (b,i,j,k) = max (Σ_h pair(b,i,j,h)·A(h,k) + Σ_e f(b,i,j,e)·W(e,k) + c(k)) 0.

  The kernel walks a grid of (batch, tile of 48 query rows); at each point it forms the pair block, multiplies it and
  the feature block (extended by a constant-one feature, against a weight whose twelfth row is the bias) by the
  weights, takes the positive part, reduces against the score weights, applies the logistic and multiplies by the
  batch's rows.  The reference does the same on whole arrays, with the bias added separately and the logistic spelt
  `1 / (1 + exp (-t))`.  On the extended reals the two agree entry by entry: the only laws used are commutativity and
  associativity of addition, `1 · c = c`, `0 + t = t`, and that a change of float format is the identity; none of
  them asks an entry to be finite, so the precondition is not opened.

  Modules: Spec (the functions above, and the extended-operand form with its law), RefIsSpec (the reference's
  stages are the specification), Pieces (what a grid point stores, as the body's arithmetic of its blocks), Payloads
  (that arithmetic read at an index), PointValues (a point's stored entries in terms of the arrays its blocks are cut
  from), EntryArrays (what the host prepared before the kernel), Blocks (blocks to arrays, and the kernel's run read).
-/
import proofs.«133173_j61744449847590_2_alg».proof.Defs
import proofs.«133173_j61744449847590_2_alg».proof.Proof.Gen.Kernel
import proofs.«133173_j61744449847590_2_alg».proof.Proof.Gen.Kernel.Skeleton
import proofs.«133173_j61744449847590_2_alg».proof.Proof.Gen.Kernel.Launch
import proofs.«133173_j61744449847590_2_alg».proof.Proof.Gen.Kernel.Points
import proofs.«133173_j61744449847590_2_alg».proof.Proof.Gen.Kernel.Frame
import proofs.«133173_j61744449847590_2_alg».proof.Proof.Gen.KernelIdeal
import proofs.«133173_j61744449847590_2_alg».proof.Proof.Gen.KernelIdeal.Skeleton
import proofs.«133173_j61744449847590_2_alg».proof.Proof.Gen.KernelIdeal.Launch
import proofs.«133173_j61744449847590_2_alg».proof.Proof.Gen.KernelIdeal.Points
import proofs.«133173_j61744449847590_2_alg».proof.Proof.Gen.KernelIdeal.Frame
import proofs.«133173_j61744449847590_2_alg».proof.Proof.Gen.KernelIdeal.Value
import proofs.«133173_j61744449847590_2_alg».proof.Proof.Gen.ReferenceIdeal
import proofs.«133173_j61744449847590_2_alg».proof.Proof.Gen.ReferenceIdeal.Run
import proofs.«133173_j61744449847590_2_alg».proof.Proof.Gen.ReferenceIdeal.Read
import proofs.«133173_j61744449847590_2_alg».proof.Proof.Gen.Pre_finite_inputs
import proofs.«133173_j61744449847590_2_alg».proof.Proof.Blocks
import proofs.«133173_j61744449847590_2_alg».proof.Proof.RefIsSpec
import Idealize.ShloMosaic.Adequacy
import Idealize.ShloMosaic.Init

noncomputable section

namespace Cert.Proof

open Idealize.ShloMosaic Idealize.ShloMosaic.TcCoe Idealize.SL.Sem Cert.PairScore

/-- The word-level kernel runs and leaves its arguments as they were. -/
theorem frame_kernel [Cert.Kernel.Facts] [Cert.Pre_finite_inputs.Facts] : Cert.frame_Kernel :=
  fun m ρ _ => Cert.Kernel.Gen.frame m ρ

/-- So does the kernel read on the extended reals. -/
theorem frame_kernel_ideal [Cert.KernelIdeal.Facts] [Cert.Pre_finite_inputs.Facts] : Cert.frame_KernelIdeal :=
  fun m ρ _ => Cert.KernelIdeal.Gen.frame m ρ

/-- The reference runs and leaves its arguments as they were: its run, with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both programs end with the context array and the pair array of the inputs. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => contextArray (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    fun c => pairArray (m ((c : Thread Cert.KernelIdeal.nD Cert.KernelIdeal.τ).loc Cert.KernelIdeal.main_arg0)),
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v23_eq, Cert.ReferenceIdeal.RefValue.context_result, a0, a1, a2, a3, a4, a5, a6]
  · rw [Cert.ReferenceIdeal.Read.val_main_v4_eq, Cert.ReferenceIdeal.RefValue.pair_result, (hagree c).1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
